-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S2048x128 : Shape := ⟨2, ![2048, 128]⟩
abbrev S1x2048x128 : Shape := ⟨3, ![1, 2048, 128]⟩
abbrev S2048x64 : Shape := ⟨2, ![2048, 64]⟩
abbrev S512x128 : Shape := ⟨2, ![512, 128]⟩
abbrev S512x64 : Shape := ⟨2, ![512, 64]⟩
abbrev S2048x512 : Shape := ⟨2, ![2048, 512]⟩
abbrev S512 : Shape := ⟨1, ![512]⟩
abbrev S1x512 : Shape := ⟨2, ![1, 512]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S3072, .f32⟩
  | .hbm, ⟨12, _⟩ => ⟨S1x3072, .f32⟩
  | .hbm, ⟨13, _⟩ => ⟨S8192x3072, .bf16⟩
  | .hbm, ⟨14, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x2048x128, .f32⟩
  | .local _ .vmem, ⟨13, _⟩ => ⟨S1x2048x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

@[reducible] def k1_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c512_i32 : BitVec 32 := 512#32
  let v14 : BitVec 32 := Scalar.muli arg6 c512_i32
  v14
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c512_i32 : BitVec 32 := 512#32
  let v14 : BitVec 32 := Scalar.muli arg6 c512_i32
  let v15 : BitVec 32 := v14
  let v16 : Index := Scalar.indexCast v15
  let c0_10 : Index := 0#32
  ![v16.toNat, 0]
@[reducible] def k1_t2_loop : Scf.Loop 32 :=
  let c0_i32_3 : BitVec 32 := 0#32
  let c4_i32_4 : BitVec 32 := 4#32
  let v8 : BitVec 32 := Scalar.addi c0_i32_3 c4_i32_4
  let c1_i32_5 : BitVec 32 := 1#32
  ⟨c0_i32_3, v8, c1_i32_5⟩
def k1_mult2 (k1_t2 : Fin k1_t2_loop.trips) : BitVec 32 :=
  let c0_i32_3 : BitVec 32 := 0#32
  let c1_i32_5 : BitVec 32 := 1#32
  let arg6 : BitVec 32 := Scf.iv c0_i32_3 c1_i32_5 k1_t2
  let c512_i32 : BitVec 32 := 512#32
  let v14 : BitVec 32 := Scalar.muli arg6 c512_i32
  v14
def k1_off2 (k1_t2 : Fin k1_t2_loop.trips) : Fin 2 → Nat :=
  let c0_i32_3 : BitVec 32 := 0#32
  let c1_i32_5 : BitVec 32 := 1#32
  let arg6 : BitVec 32 := Scf.iv c0_i32_3 c1_i32_5 k1_t2
  let c512_i32 : BitVec 32 := 512#32
  let v14 : BitVec 32 := Scalar.muli arg6 c512_i32
  let v15 : BitVec 32 := v14
  let v16 : Index := Scalar.indexCast v15
  let c0_10 : Index := 0#32
  ![v16.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x128_o0_0_S2048x64 : S2048x128.Slices ![0, 0] S2048x64
  h_S512x128 : 0 < S512x128.numel
  shapeCasts_S512x128_S512x128 : S512x128.ShapeCasts S512x128
  slices_S512x128_o0_0_S512x64 : S512x128.Slices ![0, 0] S512x64
  reduces_S2048x512_S512 : S2048x512.Reduces [0] S512
  shapeCasts_S512_S1x512 : S512.ShapeCasts S1x512
  broadcasts_S1x512_S2048x512 : S1x512.Broadcasts S2048x512
  slices_S2048x128_o0_64_S2048x64 : S2048x128.Slices ![0, 64] S2048x64
  slices_S512x128_o0_64_S512x64 : S512x128.Slices ![0, 64] S512x64
  concatenates_S2048x64_S2048x64_S2048x128_d1 : Shape.Concatenates [S2048x64, S2048x64] S2048x128 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S512x1024_S1024x3072_S512x3072_1_0_0_1_n_n_wf : DotDims.WF S512x1024 S1024x3072 S512x3072 [1] [0] [0] [1] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x128.size a ≤ S2048x128.size a
  k1_t2_ok : k1_t2_loop.OK
  k1_mult2_dvd : ∀ k1_t2 : Fin k1_t2_loop.trips, 512 ∣ (k1_mult2 k1_t2).toNat
  k1_off2_inb : ∀ k1_t2 : Fin k1_t2_loop.trips, ∀ a, (k1_off2 k1_t2) a + S512x128.size a ≤ S2048x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x3072.size a
  hwx1_0 : ∀ i : grid1.Coords, EltTy.bits .bf16 = 32 ∨ (Rect.block (s := S8192x3072) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x128.size a ≤ S4x2048x1024.size a
  hwx1_3 : ∀ i : grid1.Coords, EltTy.bits .f32 = 32 ∨ (Rect.block (s := S4x2048x1024) S1x2048x128.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x1x2048 : Shape := ⟨4, ![4, 16, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x16x64, .f32⟩
  | .hbm, ⟨12, _⟩ => ⟨S4x16x2048x64, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x16x64, .f32⟩
  | .hbm, ⟨18, _⟩ => ⟨S4x16x2048x64, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x16x64, .f32⟩
  | .hbm, ⟨24, _⟩ => ⟨S4x16x2048x64, .f32⟩
  | .hbm, ⟨25, _⟩ => ⟨S4x16x2048x2048, .f32⟩
  | .hbm, ⟨26, _⟩ => ⟨S_, .f32⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S_, .f32⟩
  | .hbm, ⟨32, _⟩ => ⟨S4x16x2048, .f32⟩
  | .hbm, ⟨33, _⟩ => ⟨S4x16x2048, .f32⟩
  | .hbm, ⟨34, _⟩ => ⟨S4x16x1x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S4x16x1x2048, .f32⟩
  | .hbm, ⟨41, _⟩ => ⟨S4x16x2048x2048, .f32⟩
  | .hbm, ⟨42, _⟩ => ⟨S4x16x2048x2048, .f32⟩
  | .hbm, ⟨43, _⟩ => ⟨S4x16x2048x64, .f32⟩
  | .hbm, ⟨44, _⟩ => ⟨S4x2048x16x64, .f32⟩
  | .hbm, ⟨45, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d2 : S4x16x2048x2048.ReducesTo [2] S4x16x2048
  h_S_ : 0 < S_.numel
  bcast_S_S4x16x2048 : S_.BroadcastsInDim S4x16x2048 (![] : Fin 0 → Fin S4x16x2048.rank)
  bcast_S4x16x2048_S4x16x1x2048_0_1_3 : S4x16x2048.BroadcastsInDim S4x16x1x2048 (![0, 1, 3] : Fin 3 → Fin S4x16x1x2048.rank)
  bcast_S4x16x1x2048_S4x16x2048x2048_0_1_2_3 : S4x16x1x2048.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Region0.lean ====
import proofs.«179196_j52527450030207_2_alg».proof.Proof.Gen.KernelIdeal.Launch
import proofs.«179196_j52527450030207_2_alg».proof.Proof.Gen.KernelIdeal.Skeleton
import proofs.«179196_j52527450030207_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 0: the projection kernel under its pipeline (16 grid points).

  Stated at a parameter V, the buffer contents when the region is entered, and for any float
  instance F.  At a grid point t the pipeline hands the body one staging buffer per window:
  window 0 holds rows 512·t … 512·t+511 of the activations, windows 1 and 2 hold the whole weight
  matrix and the whole bias row (fetched once, at the first point; at later points the buffers still
  hold them because the block index never moves), and window 3 receives the body's single store,
  which covers the whole block.  Hence what the body leaves in window 3 is a closed function of the
  three input blocks, out0_3.
-/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights) likewise: fetched at the first point only, and at a later point the
    block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activations block, the whole weight matrix, the whole bias row, the whole output block:
    the rectangles the body loads and stores through. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev r0 : Rect S512x3072 := Rect.unit (s := S512x3072) ![0, 0] S512x3072.size inb_S512x3072_S512x3072_0_0

/-! ## What the body leaves in the output window's buffer -/

/-- Window 3's staging buffer after the body, from the input windows' blocks: its one store. -/
def out0_3 (x0 : Vec F S512x1024 .f32) (x1 : Vec F S1024x3072 .bf16) (x2 : Vec F S1x3072 .f32) : Vec F S512x3072 .bf16 :=
  View.canon [⟨r0, Gen.k0_pay1 (View.ld x0 rX) (View.ld x1 rW) (View.ld x2 rB)⟩]

/-- The store is the whole block, so it covers the buffer. -/
theorem cover0_3 (p0 : Vec F S512x3072 .bf16) (y : S512x3072.Idx) :
    ∃ pc ∈ ([⟨r0, p0⟩] : List (View.Piece (Elt F) S512x3072 .bf16)), y ∈ pc.1.set :=
  View.cover_of_tiled [⟨r0, p0⟩] S512x3072.size (by rfl) y

/-! ## The body's triple -/

set_option maxHeartbeats 1000000 in
/-- The kernel body on whole staging buffers, the three inputs' at read contents x0, x1, x2 and the
    output's at anything, runs to the continuation holding the inputs' as they were and the output's at
    out0_3 of them: it loads the three inputs whole, loads the output buffer (a value nothing reads),
    and stores the payload over the whole output block. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them; after the body at
    point t each input's buffer at its block and the output's at out0_3 of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1.lean ====
/-
  The attention kernel's region (the second pallas_call), at any float instance and at a parameter V for the
  buffers' contents when the region is entered.

  At grid point t = (b, g) the body is handed three blocks [2048, 128] of ONE array (the projections' output
  [8192, 3072]): the queries' at block column g, the keys' at 8 + g, the values' at 16 + g, all at block row b.
  It loads the queries' block, runs two counted loops of four trips — each trip loads rows 512·j … 512·j + 511 of
  the keys' and the values' blocks and adds one term to a carried [2048, 64] value —, and stores the two carried
  values side by side as the output block [1, 2048, 128]. Because three input windows read one array, the array is
  held in three shares: a half, and the two halves of the other half.
-/
import proofs.«179196_j52527450030207_2_alg».proof.Proof.Gen.KernelIdeal.Launch
import proofs.«179196_j52527450030207_2_alg».proof.Proof.Gen.KernelIdeal.Skeleton
import proofs.«179196_j52527450030207_2_alg».proof.Proof.Gen.KernelIdeal.Points
import proofs.«179196_j52527450030207_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs -/

/-- One staging buffer of the output window, through which its contents are stated. -/
abbrev VO1_3 : View sig .tc .vmem S1x2048x128 .f32 := (Memref.whole cc1_stg3_0 : Memref sig .tc .vmem S1x2048x128 .f32).view
/-- Each window's current staging memref at point t, as the pipeline passes it, and its wholeness. -/
abbrev ms1_0 (t : Fin cfg1.N) : Memref sig .tc .vmem S2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x128 .f32 := win1_3.stage (cfg1.slots t 3)
abbrev hs1_3 (t : Fin cfg1.N) : (ms1_3 t).IsWhole := hstage1_3 ((cfg1.slots t 3).cast nbuf1_3)

set_option maxHeartbeats 4000000 in
/-- What the body's one store leaves in the output's staging memref, as pieces, WITH the proof that on whole
    staging memrefs — the three inputs' at their contents, the output's at anything — the body runs to the
    continuation holding the inputs' as they were and the output's buffer with the pieces written. Both counted
    loops are passed by their invariants, once per symbolic trip. -/
noncomputable def kernelRun1 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (x0 x1 x2 : Vec F S2048x128 .bf16) :
    { L3 : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__attn_kernel i arg2 harg2 arg3 harg3 arg4 harg4 arg5 harg5) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What the output holds after each point -/

/-- The run's pieces tile the output block (one store of the whole block), so they cover it. -/
theorem cover1_3 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (x0 x1 x2 : Vec F S2048x128 .bf16) (y : S1x2048x128.Idx) :
    ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1 S1x2048x128.size (by sl_kernel_rfl) y

/-- What the run leaves in the output's staging buffer: its pieces read back over junk. -/
def out1_3 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (x0 x1 x2 : Vec F S2048x128 .bf16) : Vec F S1x2048x128 .f32 :=
  VO1_3.read (Elt F) (VO1_3.writes (Elt F) VO1_3.junk (kernelRun1 c i arg2 harg2 arg3 harg3 arg4 harg4 arg5 harg5 x0 x1 x2).1)

/-- The output's staging buffer after the body at point t: the run's contents at the point's memrefs and input blocks. -/
def outsAt1 (c : Dev nD) (t : Fin cfg1.N) : Vec F S1x2048x128 .f32 :=
  out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-! ## The pipeline's proof data -/

/-- The proof data of the attention pipeline on core c: the arrays as the region finds them; after the body at point
    t each input's buffer at its block and the output's at outsAt1; the invariant the scoped rest and the generator
    register, untouched; nothing owed. The three input windows read ONE array: it is held a half by the first,
    a quarter by each of the others. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.LibThreeShares.lean ====
/-
  A holding of part of a buffer at a share is three holdings of it — at the share's left half and at the two halves of
  its right half — and the three make the one again. (What a buffer that three readers read at once is dealt into, and
  collected from; for any machine, location, element set, share and contents.)
-/
import Idealize.ShloMosaic.Rules.PointsTo
import Idealize.ShloMosaic.Lib.Tactic

noncomputable section

namespace Cert.Lib

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- The elements I of the buffer at ℓ held at share q, contents f, are the same elements held at q's left half, at the
    left half of q's right half and at the right half of q's right half; and conversely. -/
theorem pointsTo_three_shares {ℓ : Loc nD τ sig} (I : Finset (Idx ℓ)) (q : PosShare TreeShare) (f : Buf Val ℓ) :
    (ℓ ↦[I]{q} f : sProp 𝕄) ⊣⊢ iprop((ℓ ↦[I]{q.left} f) ∗ (ℓ ↦[I]{q.right.left} f) ∗ (ℓ ↦[I]{q.right.right} f)) := by
  refine ⟨?_, ?_⟩
  · iintro H
    ihave H' := (pointsTo_share (PosShare.mem_left_op_right q)).1 $$ H
    icases H' with ⟨H0, H12⟩
    ihave H'' := (pointsTo_share (PosShare.mem_left_op_right q.right)).1 $$ H12
    icases H'' with ⟨H1, H2⟩
    isplitl [H0]; · iexact H0
    isplitl [H1]; · iexact H1
    iexact H2
  · iintro ⟨H0, H1, H2⟩
    iapply (pointsTo_share (PosShare.mem_left_op_right q)).2
    isplitl [H0]; · iexact H0
    iapply (pointsTo_share (PosShare.mem_left_op_right q.right)).2
    isplitl [H1]; · iexact H1
    iexact H2

end Cert.Lib

end
-- ==== Proof.Shares.lean ====
import proofs.«179196_j52527450030207_2_alg».proof.Proof.Region1
import proofs.«179196_j52527450030207_2_alg».proof.Proof.LibThreeShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The buffers behind the attention region's arrays are two: the projections' output, read by three windows, and the result. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v6) ↦{fullShare} X main_v6) ∗ (((c : Thread nD τ).loc main_v7) ↦{fullShare} X main_v7)) := by
  unfold Pipeline.arrBufs
  rw [BI.bigSep_eq_bigSepL_of_eq [main_v6, main_v7] (by decide) (by decide)]; rfl

/-- The region's arrays, window by window, each at its share. -/
theorem arrays1_eq (c : Dev nD) (G : (w : Fin cfg1.W) → Buf (Elt F) ((cfg1.win w).arr.view.loc (c : Thread nD τ))) :
    ((R1.dat1 V c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1]
  rw [(arr_whole1 0).set_eq_univ, (arr_whole1 3).set_eq_univ]
  rfl

/-- A buffer whole at the full share is three holdings of it: a half and the two halves of the other half. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) :=
  Cert.Lib.pointsTo_three_shares Finset.univ fullShare f

/-- ENTRY: the core's unscoped buffers at the region-entry contents are the region's arrays at their entry contents,
    the shared array dealt among its three windows, beside the buffers no window stages. -/
theorem entry1 (c : Dev nD) :
    (unscopedBufs c (V c) : sProp 𝕄) ⊢ iprop((R1.dat1 V c).arrays ((R1.dat1 V c).arrAt · 0) ∗ Pipeline.unscopedRest spec1 c (V c)) := by
  rw [Pipeline.unscopedBufs_split₀ cfgs (1 : Fin 2) winFacts₀1.arr_unscoped c (V c)]
  show iprop(Pipeline.arrBufs spec1 c (V c) ∗ Pipeline.unscopedRest spec1 c (V c)) ⊢ _
  rw [arrBufs1_eq, arrays1_eq]
  iintro ⟨⟨H6, H7⟩, Hrest⟩
  ihave H' := (three_shares (V c main_v6)).1 $$ H6
  icases H' with ⟨Ha, Hb, Hc⟩
  isplitr [Hrest]
  · isplitl [Ha]; · iexact Ha
    isplitl [Hb]; · iexact Hb
    isplitl [Hc]; · iexact Hc
    iexact H7
  iexact Hrest

/-- EXIT: the region's arrays at their final contents — the shared array as entered in each of its three shares, the
    result array at what its write-backs leave — and the buffers no window stages are the core's unscoped buffers at any
    contents V' that has the result array so and agrees with the entry contents elsewhere. -/
theorem exit1 (c : Dev nD) (V' : (b : Ref sig .tc) → Buf (Elt F) ((c : Thread nD τ).loc b))
    (h7 : V' main_v7 = (R1.dat1 V c).arrAt 3 cfg1.N) (hrest : ∀ b, b ≠ main_v7 → V' b = V c b) :
    iprop((R1.dat1 V c).arrays ((R1.dat1 V c).arrAt · cfg1.N) ∗ Pipeline.unscopedRest spec1 c (V c)) ⊢ (unscopedBufs c V' : sProp 𝕄) := by
  have hR : (Pipeline.unscopedRest (Ix := Unit) (Name := ℕ) (U := UR sig nD τ) (Lvl := ℕ) spec1 c V' : sProp 𝕄) = Pipeline.unscopedRest spec1 c (V c) := by
    unfold Pipeline.unscopedRest
    exact bigSep_congr fun b hb => by
      rw [hrest b (fun e => (Finset.mem_sdiff.mp hb).2 (Finset.mem_image.mpr ⟨(3 : Fin 4), Finset.mem_univ _, (show Pipeline.arrRef spec1 3 = b from e.symm)⟩))]
  have e0 : (R1.dat1 V c).arrAt 0 cfg1.N = V c (Pipeline.arrRef spec1 0) := ((R1.dat1 V c).arrAt_in 0 rfl _).trans (R1.A_eq1 V c 0)
  have e1 : (R1.dat1 V c).arrAt 1 cfg1.N = V c (Pipeline.arrRef spec1 1) := ((R1.dat1 V c).arrAt_in 1 rfl _).trans (R1.A_eq1 V c 1)
  have e2 : (R1.dat1 V c).arrAt 2 cfg1.N = V c (Pipeline.arrRef spec1 2) := ((R1.dat1 V c).arrAt_in 2 rfl _).trans (R1.A_eq1 V c 2)
  rw [Pipeline.unscopedBufs_split₀ cfgs (1 : Fin 2) winFacts₀1.arr_unscoped c V']
  show _ ⊢ iprop(Pipeline.arrBufs spec1 c V' ∗ Pipeline.unscopedRest spec1 c V')
  rw [arrBufs1_eq, arrays1_eq, hR, h7, hrest main_v6 (by decide)]
  dsimp only
  rw [e0, e1, e2]
  iintro ⟨⟨Ha, Hb, Hc, H7⟩, Hrest⟩
  isplitr [Hrest]
  · isplitr [H7]
    · iapply (three_shares (V c main_v6)).2
      isplitl [Ha]; · iexact Ha
      isplitl [Hb]; · iexact Hb
      iexact Hc
    iexact H7
  iexact Hrest

end Cert.KernelIdeal.Sh

end
-- ==== Proof.Run.lean ====
import proofs.«179196_j52527450030207_2_alg».proof.Proof.Region0
import proofs.«179196_j52527450030207_2_alg».proof.Proof.Shares
import proofs.«179196_j52527450030207_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Sh

variable (m : (ℓ : Loc nD τ sig) → Buf (Elt F) ℓ) (ρ : Dev nD → PrngReg)

/-! ## The buffers' contents at each boundary of @main

@main is a stretch of six host operations (the reshape of x, the fused and transposed weights, the fused bias), the
projection region, the attention region. -/

/-- Core c's buffers at launch, -/
abbrev W0 : Dev nD → Valuation τ sig (Elt F) := fun c b => m (c, b)
/-- after the host stretch (the projection region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the projection region: its arrays at what the pipeline leaves, every other buffer as entered (the attention
    region's entry), -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- and after the attention region: the result array at what its write-backs leave, every other buffer as entered. -/
def W3 (c : Dev nD) : Valuation τ sig (Elt F) :=
  Function.update (W2 m c) (Proc.devRef .tc main_v7) ((R1.dat1 (V2 m) c).arrAt 3 cfg1.N)
abbrev V3 : (c : Dev nD) → (b : Ref sig .tc) → Buf (Elt F) ((c : Thread nD τ).loc b) := fun c b => W3 m c b
theorem W3_v7 (c : Dev nD) : W3 m c (Proc.devRef .tc main_v7) = (R1.dat1 (V2 m) c).arrAt 3 cfg1.N := by
  unfold W3; exact Function.update_self ..
theorem W3_of_ne (c : Dev nD) (b : Ref sig .tc) (hb : b ≠ main_v7) : W3 m c (Proc.devRef .tc b) = W2 m c (Proc.devRef .tc b) := by
  unfold W3; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- The host stretch as a segment: from every unscoped buffer at the launch contents to them at W1. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region over the thread state: entered from every unscoped buffer at W1, left at W2. Its four arrays
    are distinct buffers, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W2, left at W3. The array its
    three input windows read is dealt among them at entry and made whole again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 (F := F) (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (V2 m) c (V3 m c) (W3_v7 m c) (fun b hb => W3_of_ne m c b hb)
    rw [Pipeline.unscopedBufs_held] at hjoin
    iintro ⟨Ha, HO, HY, Hrest⟩
    imodintro
    isplitr [HO]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg0 m),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents W3 — the result array at what the
    attention region's write-backs leave, the arguments as launched. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the run says of the arguments and of the result -/

/-- A buffer that no host operation writes, that is no array of the projection region and is not the result array
    reaches the end as launched. -/
theorem W3_kept (c : Dev nD) (b : Ref sig .tc) (h7 : b ≠ main_v7) (h0 : ∀ w, Pipeline.arrRef spec0 w ≠ b) (hW : b ∉ hostOps0_W) :
    W3 m c (Proc.devRef .tc b) = m ((c : Thread nD τ).loc b) :=
  (W3_of_ne m c b h7).trans ((W2_of_ne m c b h0).trans ((V1_of m c b hW).trans rfl))

/-- THE RUN, read at the result and the arguments: the result array ends at what the attention region's write-backs
    leave, every argument array as launched. -/
theorem run_result : θ_run defs (onTc (τ := τ) (main (F := F))) ⟨m, fun _ => 0, ρ⟩ (fun r => ∀ c : Dev nD,
      r.2.mem ((c.tc : Thread nD τ).loc main_v7) = (R1.dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7 (by decide))).trans (W3_v7 m c),
     (h c _ (mem_uc main_arg0 (by decide))).trans (W3_kept m c main_arg0 (by decide) (by decide) (by decide)),
     (h c _ (mem_uc main_arg1 (by decide))).trans (W3_kept m c main_arg1 (by decide) (by decide) (by decide)),
     (h c _ (mem_uc main_arg2 (by decide))).trans (W3_kept m c main_arg2 (by decide) (by decide) (by decide)),
     (h c _ (mem_uc main_arg3 (by decide))).trans (W3_kept m c main_arg3 (by decide) (by decide) (by decide)),
     (h c _ (mem_uc main_arg4 (by decide))).trans (W3_kept m c main_arg4 (by decide) (by decide) (by decide)),
     (h c _ (mem_uc main_arg5 (by decide))).trans (W3_kept m c main_arg5 (by decide) (by decide) (by decide)),
     (h c _ (mem_uc main_arg6 (by decide))).trans (W3_kept m c main_arg6 (by decide) (by decide) (by decide))⟩) (run_all m ρ)

/-- The frame: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Run

end
-- ==== Proof.Region0Bits.lean ====
import proofs.«179196_j52527450030207_2_alg».proof.Proof.Gen.Kernel.Launch
import proofs.«179196_j52527450030207_2_alg».proof.Proof.Gen.Kernel.Skeleton
import proofs.«179196_j52527450030207_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 0: the projection kernel under its pipeline (16 grid points).

  Stated at a parameter V, the buffer contents when the region is entered, and for any float
  instance F.  At a grid point t the pipeline hands the body one staging buffer per window:
  window 0 holds rows 512·t … 512·t+511 of the activations, windows 1 and 2 hold the whole weight
  matrix and the whole bias row (fetched once, at the first point; at later points the buffers still
  hold them because the block index never moves), and window 3 receives the body's single store,
  which covers the whole block.  Hence what the body leaves in window 3 is a closed function of the
  three input blocks, out0_3.
-/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights) likewise: fetched at the first point only, and at a later point the
    block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activations block, the whole weight matrix, the whole bias row, the whole output block:
    the rectangles the body loads and stores through. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev r0 : Rect S512x3072 := Rect.unit (s := S512x3072) ![0, 0] S512x3072.size inb_S512x3072_S512x3072_0_0

/-! ## What the body leaves in the output window's buffer -/

/-- Window 3's staging buffer after the body, from the input windows' blocks: its one store. -/
def out0_3 (x0 : Vec F S512x1024 .f32) (x1 : Vec F S1024x3072 .bf16) (x2 : Vec F S1x3072 .f32) : Vec F S512x3072 .bf16 :=
  View.canon [⟨r0, Gen.k0_pay1 (View.ld x0 rX) (View.ld x1 rW) (View.ld x2 rB)⟩]

/-- The store is the whole block, so it covers the buffer. -/
theorem cover0_3 (p0 : Vec F S512x3072 .bf16) (y : S512x3072.Idx) :
    ∃ pc ∈ ([⟨r0, p0⟩] : List (View.Piece (Elt F) S512x3072 .bf16)), y ∈ pc.1.set :=
  View.cover_of_tiled [⟨r0, p0⟩] S512x3072.size (by rfl) y

/-! ## The body's triple -/

set_option maxHeartbeats 1000000 in
/-- The kernel body on whole staging buffers, the three inputs' at read contents x0, x1, x2 and the
    output's at anything, runs to the continuation holding the inputs' as they were and the output's at
    out0_3 of them: it loads the three inputs whole, loads the output buffer (a value nothing reads),
    and stores the payload over the whole output block. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them; after the body at
    point t each input's buffer at its block and the output's at out0_3 of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Region1Bits.lean ====
/-
  The attention kernel's region (the second pallas_call), at any float instance and at a parameter V for the
  buffers' contents when the region is entered.

  At grid point t = (b, g) the body is handed three blocks [2048, 128] of ONE array (the projections' output
  [8192, 3072]): the queries' at block column g, the keys' at 8 + g, the values' at 16 + g, all at block row b.
  It loads the queries' block, runs two counted loops of four trips — each trip loads rows 512·j … 512·j + 511 of
  the keys' and the values' blocks and adds one term to a carried [2048, 64] value —, and stores the two carried
  values side by side as the output block [1, 2048, 128]. Because three input windows read one array, the array is
  held in three shares: a half, and the two halves of the other half.
-/
import proofs.«179196_j52527450030207_2_alg».proof.Proof.Gen.Kernel.Launch
import proofs.«179196_j52527450030207_2_alg».proof.Proof.Gen.Kernel.Skeleton
import proofs.«179196_j52527450030207_2_alg».proof.Proof.Gen.Kernel.Points
import proofs.«179196_j52527450030207_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs -/

/-- One staging buffer of the output window, through which its contents are stated. -/
abbrev VO1_3 : View sig .tc .vmem S1x2048x128 .f32 := (Memref.whole cc1_stg3_0 : Memref sig .tc .vmem S1x2048x128 .f32).view
/-- Each window's current staging memref at point t, as the pipeline passes it, and its wholeness. -/
abbrev ms1_0 (t : Fin cfg1.N) : Memref sig .tc .vmem S2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x128 .f32 := win1_3.stage (cfg1.slots t 3)
abbrev hs1_3 (t : Fin cfg1.N) : (ms1_3 t).IsWhole := hstage1_3 ((cfg1.slots t 3).cast nbuf1_3)

set_option maxHeartbeats 4000000 in
/-- What the body's one store leaves in the output's staging memref, as pieces, WITH the proof that on whole
    staging memrefs — the three inputs' at their contents, the output's at anything — the body runs to the
    continuation holding the inputs' as they were and the output's buffer with the pieces written. Both counted
    loops are passed by their invariants, once per symbolic trip. -/
noncomputable def kernelRun1 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (x0 x1 x2 : Vec F S2048x128 .bf16) :
    { L3 : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__attn_kernel i arg2 harg2 arg3 harg3 arg4 harg4 arg5 harg5) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What the output holds after each point -/

/-- The run's pieces tile the output block (one store of the whole block), so they cover it. -/
theorem cover1_3 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (x0 x1 x2 : Vec F S2048x128 .bf16) (y : S1x2048x128.Idx) :
    ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1 S1x2048x128.size (by sl_kernel_rfl) y

/-- What the run leaves in the output's staging buffer: its pieces read back over junk. -/
def out1_3 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (x0 x1 x2 : Vec F S2048x128 .bf16) : Vec F S1x2048x128 .f32 :=
  VO1_3.read (Elt F) (VO1_3.writes (Elt F) VO1_3.junk (kernelRun1 c i arg2 harg2 arg3 harg3 arg4 harg4 arg5 harg5 x0 x1 x2).1)

/-- The output's staging buffer after the body at point t: the run's contents at the point's memrefs and input blocks. -/
def outsAt1 (c : Dev nD) (t : Fin cfg1.N) : Vec F S1x2048x128 .f32 :=
  out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-! ## The pipeline's proof data -/

/-- The proof data of the attention pipeline on core c: the arrays as the region finds them; after the body at point
    t each input's buffer at its block and the output's at outsAt1; the invariant the scoped rest and the generator
    register, untouched; nothing owed. The three input windows read ONE array: it is held a half by the first,
    a quarter by each of the others. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks, so the run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.SharesBits.lean ====
import proofs.«179196_j52527450030207_2_alg».proof.Proof.Region1Bits
import proofs.«179196_j52527450030207_2_alg».proof.Proof.LibThreeShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sh

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the attention region's arrays are two: the projections' output, read by three windows, and the result. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v6) ↦{fullShare} X main_v6) ∗ (((c : Thread nD τ).loc main_v7) ↦{fullShare} X main_v7)) := by
  unfold Pipeline.arrBufs
  rw [BI.bigSep_eq_bigSepL_of_eq [main_v6, main_v7] (by decide) (by decide)]; rfl

/-- The region's arrays, window by window, each at its share. -/
theorem arrays1_eq (c : Dev nD) (G : (w : Fin cfg1.W) → Buf (Elt F) ((cfg1.win w).arr.view.loc (c : Thread nD τ))) :
    ((R1.dat1 V c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1]
  rw [(arr_whole1 0).set_eq_univ, (arr_whole1 3).set_eq_univ]
  rfl

/-- A buffer whole at the full share is three holdings of it: a half and the two halves of the other half. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) :=
  Cert.Lib.pointsTo_three_shares Finset.univ fullShare f

/-- ENTRY: the core's unscoped buffers at the region-entry contents are the region's arrays at their entry contents,
    the shared array dealt among its three windows, beside the buffers no window stages. -/
theorem entry1 (c : Dev nD) :
    (unscopedBufs c (V c) : sProp 𝕄) ⊢ iprop((R1.dat1 V c).arrays ((R1.dat1 V c).arrAt · 0) ∗ Pipeline.unscopedRest spec1 c (V c)) := by
  rw [Pipeline.unscopedBufs_split₀ cfgs (1 : Fin 2) winFacts₀1.arr_unscoped c (V c)]
  show iprop(Pipeline.arrBufs spec1 c (V c) ∗ Pipeline.unscopedRest spec1 c (V c)) ⊢ _
  rw [arrBufs1_eq, arrays1_eq]
  iintro ⟨⟨H6, H7⟩, Hrest⟩
  ihave H' := (three_shares (V c main_v6)).1 $$ H6
  icases H' with ⟨Ha, Hb, Hc⟩
  isplitr [Hrest]
  · isplitl [Ha]; · iexact Ha
    isplitl [Hb]; · iexact Hb
    isplitl [Hc]; · iexact Hc
    iexact H7
  iexact Hrest

/-- EXIT: the region's arrays at their final contents — the shared array as entered in each of its three shares, the
    result array at what its write-backs leave — and the buffers no window stages are the core's unscoped buffers at any
    contents V' that has the result array so and agrees with the entry contents elsewhere. -/
theorem exit1 (c : Dev nD) (V' : (b : Ref sig .tc) → Buf (Elt F) ((c : Thread nD τ).loc b))
    (h7 : V' main_v7 = (R1.dat1 V c).arrAt 3 cfg1.N) (hrest : ∀ b, b ≠ main_v7 → V' b = V c b) :
    iprop((R1.dat1 V c).arrays ((R1.dat1 V c).arrAt · cfg1.N) ∗ Pipeline.unscopedRest spec1 c (V c)) ⊢ (unscopedBufs c V' : sProp 𝕄) := by
  have hR : (Pipeline.unscopedRest (Ix := Unit) (Name := ℕ) (U := UR sig nD τ) (Lvl := ℕ) spec1 c V' : sProp 𝕄) = Pipeline.unscopedRest spec1 c (V c) := by
    unfold Pipeline.unscopedRest
    exact bigSep_congr fun b hb => by
      rw [hrest b (fun e => (Finset.mem_sdiff.mp hb).2 (Finset.mem_image.mpr ⟨(3 : Fin 4), Finset.mem_univ _, (show Pipeline.arrRef spec1 3 = b from e.symm)⟩))]
  have e0 : (R1.dat1 V c).arrAt 0 cfg1.N = V c (Pipeline.arrRef spec1 0) := ((R1.dat1 V c).arrAt_in 0 rfl _).trans (R1.A_eq1 V c 0)
  have e1 : (R1.dat1 V c).arrAt 1 cfg1.N = V c (Pipeline.arrRef spec1 1) := ((R1.dat1 V c).arrAt_in 1 rfl _).trans (R1.A_eq1 V c 1)
  have e2 : (R1.dat1 V c).arrAt 2 cfg1.N = V c (Pipeline.arrRef spec1 2) := ((R1.dat1 V c).arrAt_in 2 rfl _).trans (R1.A_eq1 V c 2)
  rw [Pipeline.unscopedBufs_split₀ cfgs (1 : Fin 2) winFacts₀1.arr_unscoped c V']
  show _ ⊢ iprop(Pipeline.arrBufs spec1 c V' ∗ Pipeline.unscopedRest spec1 c V')
  rw [arrBufs1_eq, arrays1_eq, hR, h7, hrest main_v6 (by decide)]
  dsimp only
  rw [e0, e1, e2]
  iintro ⟨⟨Ha, Hb, Hc, H7⟩, Hrest⟩
  isplitr [Hrest]
  · isplitr [H7]
    · iapply (three_shares (V c main_v6)).2
      isplitl [Ha]; · iexact Ha
      isplitl [Hb]; · iexact Hb
      iexact Hc
    iexact H7
  iexact Hrest

end Cert.Kernel.Sh

end
-- ==== Proof.RunBits.lean ====
import proofs.«179196_j52527450030207_2_alg».proof.Proof.Region0Bits
import proofs.«179196_j52527450030207_2_alg».proof.Proof.SharesBits
import proofs.«179196_j52527450030207_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Sh

variable (m : (ℓ : Loc nD τ sig) → Buf (Elt F) ℓ) (ρ : Dev nD → PrngReg)

/-! ## The buffers' contents at each boundary of @main

@main is a stretch of six host operations (the reshape of x, the fused and transposed weights, the fused bias), the
projection region, the attention region. -/

/-- Core c's buffers at launch, -/
abbrev W0 : Dev nD → Valuation τ sig (Elt F) := fun c b => m (c, b)
/-- after the host stretch (the projection region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the projection region: its arrays at what the pipeline leaves, every other buffer as entered (the attention
    region's entry), -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- and after the attention region: the result array at what its write-backs leave, every other buffer as entered. -/
def W3 (c : Dev nD) : Valuation τ sig (Elt F) :=
  Function.update (W2 m c) (Proc.devRef .tc main_v7) ((R1.dat1 (V2 m) c).arrAt 3 cfg1.N)
abbrev V3 : (c : Dev nD) → (b : Ref sig .tc) → Buf (Elt F) ((c : Thread nD τ).loc b) := fun c b => W3 m c b
theorem W3_v7 (c : Dev nD) : W3 m c (Proc.devRef .tc main_v7) = (R1.dat1 (V2 m) c).arrAt 3 cfg1.N := by
  unfold W3; exact Function.update_self ..
theorem W3_of_ne (c : Dev nD) (b : Ref sig .tc) (hb : b ≠ main_v7) : W3 m c (Proc.devRef .tc b) = W2 m c (Proc.devRef .tc b) := by
  unfold W3; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- The host stretch as a segment: from every unscoped buffer at the launch contents to them at W1. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region over the thread state: entered from every unscoped buffer at W1, left at W2. Its four arrays
    are distinct buffers, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W2, left at W3. The array its
    three input windows read is dealt among them at entry and made whole again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 (F := F) (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (V2 m) c (V3 m c) (W3_v7 m c) (fun b hb => W3_of_ne m c b hb)
    rw [Pipeline.unscopedBufs_held] at hjoin
    iintro ⟨Ha, HO, HY, Hrest⟩
    imodintro
    isplitr [HO]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg0 m),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents W3 — the result array at what the
    attention region's write-backs leave, the arguments as launched. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the run says of the arguments and of the result -/

/-- A buffer that no host operation writes, that is no array of the projection region and is not the result array
    reaches the end as launched. -/
theorem W3_kept (c : Dev nD) (b : Ref sig .tc) (h7 : b ≠ main_v7) (h0 : ∀ w, Pipeline.arrRef spec0 w ≠ b) (hW : b ∉ hostOps0_W) :
    W3 m c (Proc.devRef .tc b) = m ((c : Thread nD τ).loc b) :=
  (W3_of_ne m c b h7).trans ((W2_of_ne m c b h0).trans ((V1_of m c b hW).trans rfl))

/-- THE RUN, read at the result and the arguments: the result array ends at what the attention region's write-backs
    leave, every argument array as launched. -/
theorem run_result : θ_run defs (onTc (τ := τ) (main (F := F))) ⟨m, fun _ => 0, ρ⟩ (fun r => ∀ c : Dev nD,
      r.2.mem ((c.tc : Thread nD τ).loc main_v7) = (R1.dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7 (by decide))).trans (W3_v7 m c),
     (h c _ (mem_uc main_arg0 (by decide))).trans (W3_kept m c main_arg0 (by decide) (by decide) (by decide)),
     (h c _ (mem_uc main_arg1 (by decide))).trans (W3_kept m c main_arg1 (by decide) (by decide) (by decide)),
     (h c _ (mem_uc main_arg2 (by decide))).trans (W3_kept m c main_arg2 (by decide) (by decide) (by decide)),
     (h c _ (mem_uc main_arg3 (by decide))).trans (W3_kept m c main_arg3 (by decide) (by decide) (by decide)),
     (h c _ (mem_uc main_arg4 (by decide))).trans (W3_kept m c main_arg4 (by decide) (by decide) (by decide)),
     (h c _ (mem_uc main_arg5 (by decide))).trans (W3_kept m c main_arg5 (by decide) (by decide) (by decide)),
     (h c _ (mem_uc main_arg6 (by decide))).trans (W3_kept m c main_arg6 (by decide) (by decide) (by decide))⟩) (run_all m ρ)

/-- The frame: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Run

end
-- ==== Proof.Spec.lean ====
/-
  The mathematics both programs compute, over the extended reals.

  Multi-head attention over x : [4, 2048, 1024] with 16 heads of width 64, the softmax taken over the
  QUERY axis: for a batch entry b and a head h, with
      Q s d = Σ_e x[b,s,e] · Wq[64h+d, e] + bq[64h+d]      (and K, V alike from Wk, bk and Wv, bv),
  the score of query s against a key vector κ is  sc s = (Σ_d Q s d · κ d) · (1/10);  the column of
  scores of one key over all queries is normalised,
      m = max_s sc s,   e s = exp (sc s − m),   l = Σ_s e s,   a s = e s / l,
  and the result is  out[b, s, 64h+d] = Σ_k a_k s · V k d,  a_k the weights of key k's vector K k.
  Every per-key quantity depends on the key only through its vector, so the same definitions serve a
  block of keys and the whole key axis.
-/
import Idealize.ShloMosaic.PureOps.Ideal
import Idealize.ShloMosaic.Lib.ValueIdx

noncomputable section

namespace Cert.Attn

open Idealize.ShloMosaic Idealize.ShloMosaic.ValueIdx

/-- The input's shape [4, 2048, 1024], a weight's [1024, 1024], a bias's [1024]. -/
abbrev SX : Shape := ⟨3, ![4, 2048, 1024]⟩
abbrev SW : Shape := ⟨2, ![1024, 1024]⟩
abbrev SB : Shape := ⟨1, ![1024]⟩

/-- The feature 64·h + d that lane d of head h sits at. -/
def feat (h : Fin 16) (d : Fin 64) : Fin 1024 := ⟨64 * h.val + d.val, by omega⟩

/-- The head a feature belongs to, and its lane inside the head. -/
def headOf (n : Fin 1024) : Fin 16 := ⟨n.val / 64, by omega⟩
def laneOf (n : Fin 1024) : Fin 64 := ⟨n.val % 64, Nat.mod_lt _ (by decide)⟩

theorem feat_head_lane (n : Fin 1024) : feat (headOf n) (laneOf n) = n :=
  Fin.ext (by simp only [feat, headOf, laneOf]; omega)

/-- A linear layer y = x · Wᵀ + b at batch entry bt, position s, output feature n. -/
def proj (x : FVec Ideal SX .f32) (W : FVec Ideal SW .f32) (b : FVec Ideal SB .f32)
    (bt : Fin 4) (s : Fin 2048) (n : Fin 1024) : EReal :=
  (∑ e : Fin 1024, x (ix3 bt s e) * W (ix2 n e)) + b (ix1 n)

/-- The scaled score of query s against the key vector κ. -/
def score (Q : Fin 2048 → Fin 64 → EReal) (κ : Fin 64 → EReal) (s : Fin 2048) : EReal :=
  (∑ d : Fin 64, Q s d * κ d) * ((1 / 10 : ℝ) : EReal)

/-- The largest score any query has against κ (the fold starts from the pattern of −∞). -/
def colMax (Q : Fin 2048 → Fin 64 → EReal) (κ : Fin 64 → EReal) : EReal :=
  (Finset.univ : Finset (Fin 2048)).fold max (Ideal.ofBits .f32 0xFF800000#32) (fun s => score Q κ s)

/-- The shifted exponential of query s's score against κ. -/
def expo (Q : Fin 2048 → Fin 64 → EReal) (κ : Fin 64 → EReal) (s : Fin 2048) : EReal :=
  Ideal.exp (score Q κ s - colMax Q κ)

/-- κ's normaliser: the sum of its shifted exponentials over all queries. -/
def colSum (Q : Fin 2048 → Fin 64 → EReal) (κ : Fin 64 → EReal) : EReal :=
  ∑ s : Fin 2048, expo Q κ s

/-- The attention weight of query s on the key with vector κ. -/
def weight (Q : Fin 2048 → Fin 64 → EReal) (κ : Fin 64 → EReal) (s : Fin 2048) : EReal :=
  Ideal.div (expo Q κ s) (colSum Q κ)

/-- One head's output at query s, lane d, over n keys with vectors K k and values V k. -/
def headOut {n : Nat} (Q : Fin 2048 → Fin 64 → EReal) (K V : Fin n → Fin 64 → EReal) (s : Fin 2048) (d : Fin 64) : EReal :=
  ∑ k : Fin n, weight Q (K k) s * V k d

/-- The whole result, entry by entry. -/
def G (x : FVec Ideal SX .f32) (Wq : FVec Ideal SW .f32) (bq : FVec Ideal SB .f32)
    (Wk : FVec Ideal SW .f32) (bk : FVec Ideal SB .f32) (Wv : FVec Ideal SW .f32) (bv : FVec Ideal SB .f32) :
    FVec Ideal SX .f32 := fun i =>
  headOut (n := 2048)
          (fun s d => proj x Wq bq (i 0) s (feat (headOf (i 2)) d))
          (fun s d => proj x Wk bk (i 0) s (feat (headOf (i 2)) d))
          (fun s d => proj x Wv bv (i 0) s (feat (headOf (i 2)) d))
          (i 1) (laneOf (i 2))

end Cert.Attn

end
-- ==== Proof.PayValue.lean ====
/-
  The kernel bodies' arithmetic read at an index, over the extended reals.

  Each payload of the two kernel functions is a composition of elementwise operations, layout
  operations (slices of lanes, unit-axis casts, row broadcasts, a concatenation) and three kinds of
  non-pointwise operation (a matrix product into a zero accumulator, a column maximum, a column sum).
  Read at an index (p, q) each of them is a closed expression in the operands at indices: a product is
  the sum over the contracted coordinate, a column maximum is the fold of max over the rows from the
  pattern of −∞, a column sum is the sum over the rows. Composed, one trip of the attention kernel adds
  to its accumulator exactly the head output of the specification over the trip's 512 keys.
-/
import proofs.«179196_j52527450030207_2_alg».proof.Proof.Gen.KernelIdeal.Skeleton
import proofs.«179196_j52527450030207_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

theorem mmProj_lhs_non (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem mmProj_lhs_con (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem mmProj_rhs_non (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
theorem mmProj_rhs_con (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

/-- The product into a zero accumulator, read at (p, q): the sum over the contracted coordinate. -/
theorem mmProj_apply (lhs : FVec Ideal S512x1024 .bf16) (rhs : FVec Ideal S1024x3072 .bf16) (p : Fin 512) (q : Fin 3072) :
    matmul dot_S512x1024_S1024x3072_S512x3072_1_0_0_1_n_n none lhs rhs (constant S512x3072 .f32 0x00000000#32) (ix2 p q)
      = ∑ k : Fin 1024, lhs (ix2 p k) * rhs (ix2 k q) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact mmProj_lhs_non _ _
    | ⟨1, _⟩ => exact (mmProj_lhs_con _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨1, _⟩ => exact mmProj_rhs_non _ _
    | ⟨0, _⟩ => exact (mmProj_rhs_con _ _).trans hk)
  rw [el, er]

/-- The projection kernel's stored value at (p, q): the row of the input block against the column of
    the weights, plus the bias. -/
theorem pay0_apply (v0 : Vec Ideal S512x1024 .f32) (v3 : Vec Ideal S1024x3072 .bf16) (v6 : Vec Ideal S1x3072 .f32) (p : Fin 512) (q : Fin 3072) :
    k0_pay1 (F := Ideal) v0 v3 v6 (ix2 p q) = (∑ e : Fin 1024, v0 (ix2 p e) * v3 (ix2 e q)) + v6 (ix2 (0 : Fin 1) q) := by
  unfold k0_pay1
  simp only [shapeCast_self]
  rw [truncf_apply, addf_apply, mmProj_apply, broadcastTo_1b_ab_apply]
  rfl

/-- Lane e of the first head of a pair, and of the second, among the pair's 128 lanes. -/
def lane0 (e : Fin 64) : Fin 128 := ⟨e.val, by omega⟩
def lane1 (e : Fin 64) : Fin 128 := ⟨64 + e.val, by omega⟩

/-- The zero splat the first loop starts from. -/
theorem pay2_apply (s : Fin 2048) (d : Fin 64) : k1_pay2 (F := Ideal) (ix2 s d) = 0 := by
  unfold k1_pay2
  exact Ideal.ofBits_zero_f32

/-- The zero splat the second loop starts from. -/
theorem pay4_apply (s : Fin 2048) (d : Fin 64) : k1_pay4 (F := Ideal) (ix2 s d) = 0 := by
  unfold k1_pay4
  exact Ideal.ofBits_zero_f32

/-- The stored block: the two heads' results side by side, lanes 0–63 the first and 64–127 the second. -/
theorem pay6_apply (v5 v9 : FVec Ideal S2048x64 .f32) (s : Fin 2048) (e : Fin 64) :
    k1_pay6 (F := Ideal) v5 v9 (ix3 (0 : Fin 1) s (lane0 e)) = v5 (ix2 s e)
      ∧ k1_pay6 (F := Ideal) v5 v9 (ix3 (0 : Fin 1) s (lane1 e)) = v9 (ix2 s e) := by
  unfold k1_pay6
  constructor
  · rw [shapeCast_ab_1ab_apply]
    refine concatenate_pair_apply_left 1 v5 v9 _ (ix2 s (lane0 e)) rfl (ix2 s e) fun b => ?_
    match b with
    | ⟨0, _⟩ => rfl
    | ⟨1, _⟩ => rfl
  · rw [shapeCast_ab_1ab_apply]
    refine concatenate_pair_apply_right 1 v5 v9 _ (ix2 s (lane1 e)) rfl rfl (ix2 s e) (fun b hb => ?_) ?_
    · match b with
      | ⟨0, _⟩ => rfl
      | ⟨1, _⟩ => exact absurd rfl hb
    · show e.val + 64 = 64 + e.val
      exact Nat.add_comm _ _

theorem mmQK_lhs_non (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem mmQK_lhs_con (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem mmQK_rhs_non (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem mmQK_rhs_con (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- The product into a zero accumulator, read at (p, q): the sum over the contracted coordinate. -/
theorem mmQK_apply (lhs : FVec Ideal S2048x64 .bf16) (rhs : FVec Ideal S512x64 .bf16) (p : Fin 2048) (q : Fin 512) :
    matmul dot_S2048x64_S512x64_S2048x512_1_1_0_0_n_n none lhs rhs (constant S2048x512 .f32 0x00000000#32) (ix2 p q)
      = ∑ k : Fin 64, lhs (ix2 p k) * rhs (ix2 q k) := by
  simp only [matmul]
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 p q) ((contrEquiv1 dot_S2048x64_S512x64_S2048x512_1_1_0_0_n_n 64 rfl rfl).symm k) = ix2 p k := funext fun a => Fin.ext (by
    match a with
    | ⟨0, _⟩ => exact mmQK_lhs_non _ _
    | ⟨1, _⟩ => exact (mmQK_lhs_con _ _).trans hk)
  have er : dot_S2048x64_S512x64_S2048x512_1_1_0_0_n_n.rhsIdx (ix2 p q) ((contrEquiv1 dot_S2048x64_S512x64_S2048x512_1_1_0_0_n_n 64 rfl rfl).symm k) = ix2 q k := funext fun a => Fin.ext (by
    match a with
    | ⟨0, _⟩ => exact mmQK_rhs_non _ _
    | ⟨1, _⟩ => exact (mmQK_rhs_con _ _).trans hk)
  rw [el, er]

theorem mmPV_lhs_non (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem mmPV_lhs_con (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem mmPV_rhs_non (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl
theorem mmPV_rhs_con (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q

/-- The product into a zero accumulator, read at (p, q): the sum over the contracted coordinate. -/
theorem mmPV_apply (lhs : FVec Ideal S2048x512 .bf16) (rhs : FVec Ideal S512x64 .bf16) (p : Fin 2048) (q : Fin 64) :
    matmul dot_S2048x512_S512x64_S2048x64_1_0_0_1_n_n none lhs rhs (constant S2048x64 .f32 0x00000000#32) (ix2 p q)
      = ∑ k : Fin 512, lhs (ix2 p k) * rhs (ix2 k q) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 p q) ((contrEquiv1 dot_S2048x512_S512x64_S2048x64_1_0_0_1_n_n 512 rfl rfl).symm k) = ix2 p k := funext fun a => Fin.ext (by
    match a with
    | ⟨0, _⟩ => exact mmPV_lhs_non _ _
    | ⟨1, _⟩ => exact (mmPV_lhs_con _ _).trans hk)
  have er : dot_S2048x512_S512x64_S2048x64_1_0_0_1_n_n.rhsIdx (ix2 p q) ((contrEquiv1 dot_S2048x512_S512x64_S2048x64_1_0_0_1_n_n 512 rfl rfl).symm k) = ix2 k q := funext fun a => Fin.ext (by
    match a with
    | ⟨1, _⟩ => exact mmPV_rhs_non _ _
    | ⟨0, _⟩ => exact (mmPV_rhs_con _ _).trans hk)
  rw [el, er]

/-- The kernel's named scale is the rational 1/10. -/
theorem inv10 : Named.named (F := Ideal) Cert.KernelIdeal.κ "inv_10" (φ := .f32) 0x3DCCCCCD#32 = ((1 / 10 : ℝ) : EReal) :=
  IdealRules.named_const.ideal_named_scalar _ _ _ _ rfl

/-- The scaled scores of 2048 queries against a block of 512 keys. -/
def scoresOf (X : FVec Ideal S2048x64 .bf16) (Y : FVec Ideal S512x64 .bf16) : FVec Ideal S2048x512 .f32 :=
  mulf (matmul dot_S2048x64_S512x64_S2048x512_1_1_0_0_n_n none X Y (constant S2048x512 .f32 0x00000000#32))
    (broadcast S2048x512 (Named.named κ "inv_10" 0x3DCCCCCD#32))

theorem scoresOf_apply (X : FVec Ideal S2048x64 .bf16) (Y : FVec Ideal S512x64 .bf16) (s : Fin 2048) (kk : Fin 512) :
    scoresOf X Y (ix2 s kk) = Cert.Attn.score (fun s' e => X (ix2 s' e)) (fun e => Y (ix2 kk e)) s := by
  unfold scoresOf Cert.Attn.score
  rw [mulf_apply, mmQK_apply, broadcast_apply, inv10]

/-- A column statistic of a [2048, 512] matrix spread back over its rows: the statistic as a [512]
    vector, a unit axis put in front, the one row repeated. -/
def colMaxOf (Z : FVec Ideal S2048x512 .f32) : FVec Ideal S2048x512 .f32 :=
  broadcastTo S2048x512 (shapeCast S1x512 (multiReduction .maximumf [0] S512 Z 0xFF800000#32 reduces_S2048x512_S512 (.inl rfl) rfl) shapeCasts_S512_S1x512) broadcasts_S1x512_S2048x512

def colSumOf (E : FVec Ideal S2048x512 .f32) : FVec Ideal S2048x512 .f32 :=
  broadcastTo S2048x512 (shapeCast S1x512 (multiReduction .add [0] S512 E 0x00000000#32 reduces_S2048x512_S512 (.inl rfl) rfl) shapeCasts_S512_S1x512) broadcasts_S1x512_S2048x512

def expoOf (Z : FVec Ideal S2048x512 .f32) : FVec Ideal S2048x512 .f32 := exp (subf Z (colMaxOf Z))

def weightsOf (Z : FVec Ideal S2048x512 .f32) : FVec Ideal S2048x512 .f32 := divf (expoOf Z) (colSumOf (expoOf Z))

/-- Row s of column kk of a [2048, 512] matrix, as the column's index with the row put back. -/
theorem lift_col (kk : Fin 512) (s : Fin 2048) : reduces_S2048x512_S512.lift (ix1 kk) s = ix2 s kk :=
  funext fun a => Fin.ext (by
    match a with
    | ⟨0, _⟩ => rfl
    | ⟨1, _⟩ => rfl)

/-- The column maximum at key kk: the fold of max over the queries from the pattern of −∞. -/
theorem colMax_red (Z : FVec Ideal S2048x512 .f32) (kk : Fin 512) :
    multiReduction .maximumf [0] S512 Z 0xFF800000#32 reduces_S2048x512_S512 (.inl rfl) rfl (ix1 kk)
      = (Finset.univ : Finset (Fin 2048)).fold max (Ideal.ofBits .f32 0xFF800000#32) (fun s => Z (ix2 s kk)) := by
  refine (Ideal.multiReduction_maximumf_single Z 0xFF800000#32 reduces_S2048x512_S512 (.inl rfl) rfl (ix1 kk)).trans ?_
  refine congrArg (fun f : Fin 2048 → EReal => (Finset.univ : Finset (Fin 2048)).fold max (Ideal.ofBits .f32 0xFF800000#32) f) ?_
  exact funext fun s => congrArg Z (lift_col kk s)

/-- The column sum at key kk: the sum over the queries. -/
theorem colSum_red (E : FVec Ideal S2048x512 .f32) (kk : Fin 512) :
    multiReduction .add [0] S512 E 0x00000000#32 reduces_S2048x512_S512 (.inl rfl) rfl (ix1 kk)
      = ∑ s : Fin 2048, E (ix2 s kk) := by
  refine (Ideal.multiReduction_add_single E 0x00000000#32 reduces_S2048x512_S512 (.inl rfl) rfl (ix1 kk)).trans ?_
  exact Finset.sum_congr rfl fun s _ => congrArg E (lift_col kk s)

section Softmax
variable (Q : Fin 2048 → Fin 64 → EReal) (K : Fin 512 → Fin 64 → EReal)

theorem colMaxOf_apply (Z : FVec Ideal S2048x512 .f32) (hZ : ∀ s kk, Z (ix2 s kk) = Cert.Attn.score Q (K kk) s)
    (s : Fin 2048) (kk : Fin 512) : colMaxOf Z (ix2 s kk) = Cert.Attn.colMax Q (K kk) := by
  unfold colMaxOf Cert.Attn.colMax
  rw [broadcastTo_1b_ab_apply, shapeCast_a_1a_apply, colMax_red]
  exact congrArg (fun f : Fin 2048 → EReal => (Finset.univ : Finset (Fin 2048)).fold max (Ideal.ofBits .f32 0xFF800000#32) f)
    (funext fun s' => hZ s' kk)

theorem expoOf_apply (Z : FVec Ideal S2048x512 .f32) (hZ : ∀ s kk, Z (ix2 s kk) = Cert.Attn.score Q (K kk) s)
    (s : Fin 2048) (kk : Fin 512) : expoOf Z (ix2 s kk) = Cert.Attn.expo Q (K kk) s := by
  unfold expoOf Cert.Attn.expo
  show Ideal.exp (Z (ix2 s kk) - colMaxOf Z (ix2 s kk)) = _
  rw [colMaxOf_apply Q K Z hZ, hZ]

theorem colSumOf_apply (E : FVec Ideal S2048x512 .f32) (hE : ∀ s kk, E (ix2 s kk) = Cert.Attn.expo Q (K kk) s)
    (s : Fin 2048) (kk : Fin 512) : colSumOf E (ix2 s kk) = Cert.Attn.colSum Q (K kk) := by
  unfold colSumOf Cert.Attn.colSum
  rw [broadcastTo_1b_ab_apply, shapeCast_a_1a_apply, colSum_red]
  exact Finset.sum_congr rfl fun s' _ => hE s' kk

theorem weightsOf_apply (Z : FVec Ideal S2048x512 .f32) (hZ : ∀ s kk, Z (ix2 s kk) = Cert.Attn.score Q (K kk) s)
    (s : Fin 2048) (kk : Fin 512) : weightsOf Z (ix2 s kk) = Cert.Attn.weight Q (K kk) s := by
  unfold weightsOf Cert.Attn.weight
  rw [divf_apply, expoOf_apply Q K Z hZ, colSumOf_apply Q K (expoOf Z) (expoOf_apply Q K Z hZ)]

end Softmax

/-- The trip's body as the product of the block's weights with the block's values, added to the
    accumulator: the payload's operations in its own order. -/
theorem pay3_eq (v0 : Vec Ideal S2048x128 .bf16) (acc : FVec Ideal S2048x64 .f32) (v17 v20 : Vec Ideal S512x128 .bf16) :
    k1_pay3 (F := Ideal) v0 acc v17 v20
      = addf acc (matmul dot_S2048x512_S512x64_S2048x64_1_0_0_1_n_n none
          (truncf .bf16 (weightsOf (scoresOf
            (extractStridedSlice S2048x64 ![0, 0] (k1_pay1 v0) slices_S2048x128_o0_0_S2048x64)
            (extractStridedSlice S512x64 ![0, 0] (shapeCast S512x128 v17 shapeCasts_S512x128_S512x128) slices_S512x128_o0_0_S512x64))) bitsLt_bf16_f32)
          (extractStridedSlice S512x64 ![0, 0] (shapeCast S512x128 v20 shapeCasts_S512x128_S512x128) slices_S512x128_o0_0_S512x64 : FVec Ideal S512x64 .bf16)
          (constant S2048x64 .f32 0x00000000#32)) := rfl

/-- One trip of the attention loop over lanes 0–63: the accumulator plus the head output of the
    specification over the trip's 512 keys. -/
theorem pay3_apply (v0 : Vec Ideal S2048x128 .bf16) (acc : FVec Ideal S2048x64 .f32) (v17 v20 : Vec Ideal S512x128 .bf16) (s : Fin 2048) (d : Fin 64) :
    k1_pay3 (F := Ideal) v0 acc v17 v20 (ix2 s d)
      = acc (ix2 s d) + Cert.Attn.headOut (n := 512) (fun s' e => v0 (ix2 s' (lane0 e))) (fun kk e => v17 (ix2 kk (lane0 e))) (fun kk e => v20 (ix2 kk (lane0 e))) s d := by
  have hq : ∀ (s' : Fin 2048) (e : Fin 64),
      (extractStridedSlice S2048x64 ![0, 0] (k1_pay1 v0) slices_S2048x128_o0_0_S2048x64 : FVec Ideal S2048x64 .bf16) (ix2 s' e) = v0 (ix2 s' (lane0 e)) := fun s' e => by
    unfold k1_pay1
    rw [shapeCast_self]
    exact slice2_axis1_apply 0 v0 _ s' e (lane0 e) (Nat.zero_add _).symm
  have hk : ∀ (v : Vec Ideal S512x128 .bf16) (kk : Fin 512) (e : Fin 64),
      (extractStridedSlice S512x64 ![0, 0] (shapeCast S512x128 v shapeCasts_S512x128_S512x128) slices_S512x128_o0_0_S512x64 : FVec Ideal S512x64 .bf16) (ix2 kk e) = v (ix2 kk (lane0 e)) := fun v kk e => by
    rw [shapeCast_self]
    exact slice2_axis1_apply 0 v _ kk e (lane0 e) (Nat.zero_add _).symm
  rw [pay3_eq, addf_apply, mmPV_apply]
  unfold Cert.Attn.headOut
  refine congrArg (acc (ix2 s d) + ·) (Finset.sum_congr rfl fun kk _ => ?_)
  rw [truncf_apply, hk v20 kk d]
  refine congrArg (· * v20 (ix2 kk (lane0 d))) ?_
  refine weightsOf_apply (fun s' e => v0 (ix2 s' (lane0 e))) (fun kk e => v17 (ix2 kk (lane0 e))) _ (fun s' kk' => ?_) s kk
  rw [scoresOf_apply]
  exact congrArg₂ (fun (A : Fin 2048 → Fin 64 → EReal) (B : Fin 64 → EReal) => Cert.Attn.score A B s')
    (funext fun s'' => funext fun e => hq s'' e) (funext fun e => hk v17 kk' e)

/-- The trip's body as the product of the block's weights with the block's values, added to the
    accumulator: the payload's operations in its own order. -/
theorem pay5_eq (v0 : Vec Ideal S2048x128 .bf16) (acc : FVec Ideal S2048x64 .f32) (v17 v20 : Vec Ideal S512x128 .bf16) :
    k1_pay5 (F := Ideal) v0 acc v17 v20
      = addf acc (matmul dot_S2048x512_S512x64_S2048x64_1_0_0_1_n_n none
          (truncf .bf16 (weightsOf (scoresOf
            (extractStridedSlice S2048x64 ![0, 64] (k1_pay1 v0) slices_S2048x128_o0_64_S2048x64)
            (extractStridedSlice S512x64 ![0, 64] (shapeCast S512x128 v17 shapeCasts_S512x128_S512x128) slices_S512x128_o0_64_S512x64))) bitsLt_bf16_f32)
          (extractStridedSlice S512x64 ![0, 64] (shapeCast S512x128 v20 shapeCasts_S512x128_S512x128) slices_S512x128_o0_64_S512x64 : FVec Ideal S512x64 .bf16)
          (constant S2048x64 .f32 0x00000000#32)) := rfl

/-- One trip of the attention loop over lanes 64–127: the accumulator plus the head output of the
    specification over the trip's 512 keys. -/
theorem pay5_apply (v0 : Vec Ideal S2048x128 .bf16) (acc : FVec Ideal S2048x64 .f32) (v17 v20 : Vec Ideal S512x128 .bf16) (s : Fin 2048) (d : Fin 64) :
    k1_pay5 (F := Ideal) v0 acc v17 v20 (ix2 s d)
      = acc (ix2 s d) + Cert.Attn.headOut (n := 512) (fun s' e => v0 (ix2 s' (lane1 e))) (fun kk e => v17 (ix2 kk (lane1 e))) (fun kk e => v20 (ix2 kk (lane1 e))) s d := by
  have hq : ∀ (s' : Fin 2048) (e : Fin 64),
      (extractStridedSlice S2048x64 ![0, 64] (k1_pay1 v0) slices_S2048x128_o0_64_S2048x64 : FVec Ideal S2048x64 .bf16) (ix2 s' e) = v0 (ix2 s' (lane1 e)) := fun s' e => by
    unfold k1_pay1
    rw [shapeCast_self]
    exact slice2_axis1_apply 64 v0 _ s' e (lane1 e) rfl
  have hk : ∀ (v : Vec Ideal S512x128 .bf16) (kk : Fin 512) (e : Fin 64),
      (extractStridedSlice S512x64 ![0, 64] (shapeCast S512x128 v shapeCasts_S512x128_S512x128) slices_S512x128_o0_64_S512x64 : FVec Ideal S512x64 .bf16) (ix2 kk e) = v (ix2 kk (lane1 e)) := fun v kk e => by
    rw [shapeCast_self]
    exact slice2_axis1_apply 64 v _ kk e (lane1 e) rfl
  rw [pay5_eq, addf_apply, mmPV_apply]
  unfold Cert.Attn.headOut
  refine congrArg (acc (ix2 s d) + ·) (Finset.sum_congr rfl fun kk _ => ?_)
  rw [truncf_apply, hk v20 kk d]
  refine congrArg (· * v20 (ix2 kk (lane1 d))) ?_
  refine weightsOf_apply (fun s' e => v0 (ix2 s' (lane1 e))) (fun kk e => v17 (ix2 kk (lane1 e))) _ (fun s' kk' => ?_) s kk
  rw [scoresOf_apply]
  exact congrArg₂ (fun (A : Fin 2048 → Fin 64 → EReal) (B : Fin 64 → EReal) => Cert.Attn.score A B s')
    (funext fun s'' => funext fun e => hq s'' e) (funext fun e => hk v17 kk' e)

end Cert.KernelIdeal.PayValue

end
-- ==== Proof.SpecQkv.lean ====
/-
  The fused projections' output, entry by entry: the array [8192, 3072] whose row 2048·b + s and column 1024·j + n
  holds layer j's projection (j = 0 the queries', 1 the keys', 2 the values') of position s of batch entry b at
  feature n.
-/
import proofs.«179196_j52527450030207_2_alg».proof.Proof.Spec

noncomputable section

namespace Cert.Attn

open Idealize.ShloMosaic Idealize.ShloMosaic.ValueIdx

/-- The j-th of three. -/
def sel3 {α : Type} (j : Nat) (a b c : α) : α := if j = 0 then a else if j = 1 then b else c

theorem sel3_zero {α : Type} (a b c : α) : sel3 0 a b c = a := rfl
theorem sel3_one {α : Type} (a b c : α) : sel3 1 a b c = b := rfl
theorem sel3_two {α : Type} (a b c : α) : sel3 2 a b c = c := rfl

/-- Row r, column col of the fused projections' output. -/
def qkv (x : FVec Ideal SX .f32) (Wq : FVec Ideal SW .f32) (bq : FVec Ideal SB .f32)
    (Wk : FVec Ideal SW .f32) (bk : FVec Ideal SB .f32) (Wv : FVec Ideal SW .f32) (bv : FVec Ideal SB .f32)
    (r : Fin 8192) (col : Fin 3072) : EReal :=
  proj x (sel3 (col.val / 1024) Wq Wk Wv) (sel3 (col.val / 1024) bq bk bv)
    ⟨r.val / 2048, by omega⟩ ⟨r.val % 2048, Nat.mod_lt _ (by decide)⟩ ⟨col.val % 1024, Nat.mod_lt _ (by decide)⟩

end Cert.Attn

end
-- ==== Proof.Value0.lean ====
/-
  The projection region's output array as ONE function of the program's arguments.

  Before the region the host operations lay the input out as an [8192, 1024] array of rows 2048·b + s, stack the
  three weight matrices by rows and transpose the stack (column q of the result is row q % 1024 of the
  (q / 1024)-th matrix), and lay the three biases end to end as one row.  At grid point t the body reads rows
  512·t … 512·t + 511 of the first, the whole of the other two, and stores the products' sums plus the bias row
  over the whole output block; so row p, column q of what point t writes back is the specification's fused
  projection at row 512·t + p, column q.  The sixteen blocks tile the 8192 rows (row r lies in block r / 512),
  hence the array ends holding that function everywhere.
-/
import proofs.«179196_j52527450030207_2_alg».proof.Proof.Region0
import proofs.«179196_j52527450030207_2_alg».proof.Proof.PayValue
import proofs.«179196_j52527450030207_2_alg».proof.Proof.SpecQkv
import proofs.«179196_j52527450030207_2_alg».proof.Proof.Gen.KernelIdeal.Launch
import proofs.«179196_j52527450030207_2_alg».proof.Proof.Gen.KernelIdeal.Points
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Value0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

abbrev W0 : Dev nD → Valuation τ sig (Elt Ideal) := fun c b => m (c, b)
abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b

/-! ## The region's three input arrays, as the host operations before it leave them -/

/-- The activations array: the input reshaped to [8192, 1024]. -/
theorem v0_term (c : Dev nD) :
    (V1 m c main_v0 : S8192x1024.Idx → EReal)
      = shapeCast S8192x1024 (m ((c.tc : Thread nD τ).loc main_arg0)) shapeCasts_S4x2048x1024_S8192x1024 := by
  dsimp only [V1, W1, W0, hostOps0]
  after_results
  rfl

/-- The weights array: the three weight matrices stacked by rows, transposed (the change of format is the identity
    at the ideal values). -/
theorem v3_term (c : Dev nD) :
    (V1 m c main_v3 : S1024x3072.Idx → EReal)
      = (truncf (F := Ideal) .bf16 (transpose S1024x3072 [1, 0]
          (concatenate S3072x1024 0 [⟨S1024x1024, (m ((c.tc : Thread nD τ).loc main_arg1) : S1024x1024.Idx → EReal)⟩,
            ⟨S1024x1024, (m ((c.tc : Thread nD τ).loc main_arg3) : S1024x1024.Idx → EReal)⟩,
            ⟨S1024x1024, (m ((c.tc : Thread nD τ).loc main_arg5) : S1024x1024.Idx → EReal)⟩] concatenates_S1024x1024_S1024x1024_S1024x1024_S3072x1024_d0)
          transposes_S3072x1024_S1024x3072_1_0) bitsLt_bf16_f32 : S1024x3072.Idx → EReal) := by
  dsimp only [V1, W1, W0, hostOps0]
  after_results
  dsimp only [Matrix.cons_val_zero, Matrix.cons_val_one, Matrix.cons_val_two, Matrix.head_cons, Matrix.tail_cons]
  repeat (rw [StableHlo.reshape_result_ne]; rotate_left; decide)
  rfl

/-- The bias row: the three biases end to end, as one row. -/
theorem v5_term (c : Dev nD) :
    (V1 m c main_v5 : S1x3072.Idx → EReal)
      = shapeCast S1x3072 (concatenate S3072 0 [⟨S1024, (m ((c.tc : Thread nD τ).loc main_arg2) : S1024.Idx → EReal)⟩,
            ⟨S1024, (m ((c.tc : Thread nD τ).loc main_arg4) : S1024.Idx → EReal)⟩,
            ⟨S1024, (m ((c.tc : Thread nD τ).loc main_arg6) : S1024.Idx → EReal)⟩] concatenates_S1024_S1024_S1024_S3072_d0)
          shapeCasts_S3072_S1x3072 := by
  dsimp only [V1, W1, W0, hostOps0]
  after_results
  dsimp only [Matrix.cons_val_zero, Matrix.cons_val_one, Matrix.cons_val_two, Matrix.head_cons, Matrix.tail_cons]
  repeat (first
    | (rw [StableHlo.unary_result_ne]; rotate_left; decide)
    | (rw [StableHlo.nary_result_ne]; rotate_left; decide)
    | (rw [StableHlo.reshape_result_ne]; rotate_left; decide))
  rfl

/-! ## The three arrays read at an index -/

/-- Row r of the activations array is position r % 2048 of batch entry r / 2048. -/
theorem v0_apply (c : Dev nD) (r : Fin 8192) (e : Fin 1024) :
    (V1 m c main_v0 : S8192x1024.Idx → EReal) (ix2 r e)
      = (m ((c.tc : Thread nD τ).loc main_arg0) : S4x2048x1024.Idx → EReal)
          (ix3 (⟨r.val / 2048, by omega⟩ : Fin 4) (⟨r.val % 2048, Nat.mod_lt _ (by decide)⟩ : Fin 2048) e) := by
  refine (congrFun (v0_term m c) (ix2 r e)).trans ?_
  refine shapeCast_apply _ shapeCasts_S4x2048x1024_S8192x1024 _ _ ?_
  rw [Shape.rowMajor_val_three, Shape.rowMajor_val_two]
  have hr := r.isLt; have he := e.isLt
  show (r.val / 2048 * 2048 + r.val % 2048) * 1024 + e.val = r.val * 1024 + e.val
  omega

/-- Column q of the weights array is row q % 1024 of the (q / 1024)-th weight matrix. -/
theorem v3_apply (c : Dev nD) (e : Fin 1024) (q : Fin 3072) :
    (V1 m c main_v3 : S1024x3072.Idx → EReal) (ix2 e q)
      = (Cert.Attn.sel3 (q.val / 1024) (m ((c.tc : Thread nD τ).loc main_arg1) : S1024x1024.Idx → EReal)
            (m ((c.tc : Thread nD τ).loc main_arg3)) (m ((c.tc : Thread nD τ).loc main_arg5)))
          (ix2 (⟨q.val % 1024, Nat.mod_lt _ (by decide)⟩ : Fin 1024) e) := by
  refine (congrFun (v3_term m c) (ix2 e q)).trans ?_
  rw [truncf_apply, ValueIdx.transpose_ix2_apply]
  have hq := q.isLt
  rcases (show q.val / 1024 = 0 ∨ q.val / 1024 = 1 ∨ q.val / 1024 = 2 by omega) with h0 | h0 | h0
  · rw [h0, Cert.Attn.sel3_zero]
    refine concatenate_apply_piece (t := S3072x1024) (0 : Fin 2) _ _ _ 0 ?_ S1024x1024 _ ?_ rfl 0 ?_ _ ?_ ?_
    · exact (by decide : 0 < 3)
    · rfl
    · rfl
    · intro b hb
      match b with
      | ⟨0, _⟩ => exact absurd rfl hb
      | ⟨1, _⟩ => rfl
    · show 0 + q.val % 1024 = q.val; omega
  · rw [h0, Cert.Attn.sel3_one]
    refine concatenate_apply_piece (t := S3072x1024) (0 : Fin 2) _ _ _ 1 ?_ S1024x1024 _ ?_ rfl 1024 ?_ _ ?_ ?_
    · exact (by decide : 1 < 3)
    · rfl
    · rfl
    · intro b hb
      match b with
      | ⟨0, _⟩ => exact absurd rfl hb
      | ⟨1, _⟩ => rfl
    · show 1024 + q.val % 1024 = q.val; omega
  · rw [h0, Cert.Attn.sel3_two]
    refine concatenate_apply_piece (t := S3072x1024) (0 : Fin 2) _ _ _ 2 ?_ S1024x1024 _ ?_ rfl 2048 ?_ _ ?_ ?_
    · exact (by decide : 2 < 3)
    · rfl
    · rfl
    · intro b hb
      match b with
      | ⟨0, _⟩ => exact absurd rfl hb
      | ⟨1, _⟩ => rfl
    · show 2048 + q.val % 1024 = q.val; omega

/-- Entry q of the bias row is entry q % 1024 of the (q / 1024)-th bias. -/
theorem v5_apply (c : Dev nD) (q : Fin 3072) :
    (V1 m c main_v5 : S1x3072.Idx → EReal) (ix2 (0 : Fin 1) q)
      = (Cert.Attn.sel3 (q.val / 1024) (m ((c.tc : Thread nD τ).loc main_arg2) : S1024.Idx → EReal)
            (m ((c.tc : Thread nD τ).loc main_arg4)) (m ((c.tc : Thread nD τ).loc main_arg6)))
          (ix1 (⟨q.val % 1024, Nat.mod_lt _ (by decide)⟩ : Fin 1024)) := by
  refine (congrFun (v5_term m c) (ix2 (0 : Fin 1) q)).trans ?_
  rw [ValueIdx.shapeCast_a_1a_apply]
  have hq := q.isLt
  rcases (show q.val / 1024 = 0 ∨ q.val / 1024 = 1 ∨ q.val / 1024 = 2 by omega) with h0 | h0 | h0
  · rw [h0, Cert.Attn.sel3_zero]
    refine concatenate_apply_piece (t := S3072) (0 : Fin 1) _ _ _ 0 ?_ S1024 _ ?_ rfl 0 ?_ _ ?_ ?_
    · exact (by decide : 0 < 3)
    · rfl
    · rfl
    · intro b hb
      match b with
      | ⟨0, _⟩ => exact absurd rfl hb
    · show 0 + q.val % 1024 = q.val; omega
  · rw [h0, Cert.Attn.sel3_one]
    refine concatenate_apply_piece (t := S3072) (0 : Fin 1) _ _ _ 1 ?_ S1024 _ ?_ rfl 1024 ?_ _ ?_ ?_
    · exact (by decide : 1 < 3)
    · rfl
    · rfl
    · intro b hb
      match b with
      | ⟨0, _⟩ => exact absurd rfl hb
    · show 1024 + q.val % 1024 = q.val; omega
  · rw [h0, Cert.Attn.sel3_two]
    refine concatenate_apply_piece (t := S3072) (0 : Fin 1) _ _ _ 2 ?_ S1024 _ ?_ rfl 2048 ?_ _ ?_ ?_
    · exact (by decide : 2 < 3)
    · rfl
    · rfl
    · intro b hb
      match b with
      | ⟨0, _⟩ => exact absurd rfl hb
    · show 2048 + q.val % 1024 = q.val; omega

/-! ## The blocks: which rows and columns each point's windows hold -/

theorem hz : (![0, 0] : Fin 2 → Nat) = fun _ => 0 := funext fun a => by fin_cases a <;> rfl

/-- The index maps, decided over the grid: the activations' and the output's blocks move down the rows with the
    point; the weights and the bias row are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := by
  have h := t.isLt
  have hN : cfg0.N = 16 := N_0
  omega

/-- The fused projections' output, as one function of the arguments. -/
abbrev G0 (c : Dev nD) : S8192x3072.Idx → EReal := fun i =>
  Cert.Attn.qkv (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (i 0) (i 1)

/-- What the body computes at row p, column q of point t's block is the fused output at row 512·t + p, column q. -/
theorem point_value (c : Dev nD) (t : Fin cfg0.N) (p : Fin 512) (q : Fin 3072) :
    Gen.k0_pay1 (F := Ideal) (R0.iblk0 (V1 m) c 0 t) (R0.iblk0 (V1 m) c 1 t) (R0.iblk0 (V1 m) c 2 t) (ix2 p q)
      = G0 m c (((cfg0.win 3).blk t).view.emb (ix2 p q)) := by
  obtain ⟨e00, e01, e10, e11, e20, e21, e30, e31⟩ := idx_facts t
  have ht := point_lt t
  have hp := p.isLt; have hq := q.isLt
  refine (PayValue.pay0_apply _ _ _ p q).trans ?_
  have hx : ∀ e : Fin 1024, R0.iblk0 (V1 m) c 0 t (ix2 p e)
      = (V1 m c main_v0 : S8192x1024.Idx → EReal) (ix2 (⟨512 * t.val + p.val, by omega⟩ : Fin 8192) e) := fun e => by
    show V1 m c main_v0 (((cfg0.win 0).blk t).view.emb (ix2 p e)) = _
    refine congrArg (V1 m c main_v0) (funext fun a => Fin.ext ?_)
    have he := e.isLt
    match a with
    | ⟨0, _⟩ => show win0_0.index t (0 : Fin 2) * 512 + 1 * p.val = 512 * t.val + p.val; omega
    | ⟨1, _⟩ => show win0_0.index t (1 : Fin 2) * 1024 + 1 * e.val = e.val; omega
  have hw : ∀ e : Fin 1024, R0.iblk0 (V1 m) c 1 t (ix2 e q) = (V1 m c main_v3 : S1024x3072.Idx → EReal) (ix2 e q) := fun e => by
    show V1 m c main_v3 (((cfg0.win 1).blk t).view.emb (ix2 e q)) = _
    refine congrArg (V1 m c main_v3) (funext fun a => Fin.ext ?_)
    have he := e.isLt
    match a with
    | ⟨0, _⟩ => show win0_1.index t (0 : Fin 2) * 1024 + 1 * e.val = e.val; omega
    | ⟨1, _⟩ => show win0_1.index t (1 : Fin 2) * 3072 + 1 * q.val = q.val; omega
  have hb : R0.iblk0 (V1 m) c 2 t (ix2 (0 : Fin 1) q) = (V1 m c main_v5 : S1x3072.Idx → EReal) (ix2 (0 : Fin 1) q) := by
    show V1 m c main_v5 (((cfg0.win 2).blk t).view.emb (ix2 (0 : Fin 1) q)) = _
    refine congrArg (V1 m c main_v5) (funext fun a => Fin.ext ?_)
    match a with
    | ⟨0, _⟩ => show win0_2.index t (0 : Fin 2) * 1 + 1 * 0 = 0; omega
    | ⟨1, _⟩ => show win0_2.index t (1 : Fin 2) * 3072 + 1 * q.val = q.val; omega
  have hi : ((cfg0.win 3).blk t).view.emb (ix2 p q) = ix2 (⟨512 * t.val + p.val, by omega⟩ : Fin 8192) q := by
    refine funext fun a => Fin.ext ?_
    match a with
    | ⟨0, _⟩ => show win0_3.index t (0 : Fin 2) * 512 + 1 * p.val = 512 * t.val + p.val; omega
    | ⟨1, _⟩ => show win0_3.index t (1 : Fin 2) * 3072 + 1 * q.val = q.val; omega
  rw [hi, hb, v5_apply]
  refine congrArg (· + _) (Finset.sum_congr rfl fun e _ => ?_)
  rw [hx e, hw e, v0_apply, v3_apply]

/-! ## From the blocks to the array -/

/-- What point t writes back is block t of the fused output. -/
theorem flushed_eq (c : Dev nD) (t : Fin cfg0.N) :
    (R0.dat0 (F := Ideal) (V1 m) c).flushed 3 t = ((cfg0.win 3).blk t).view.read (Elt Ideal) (G0 m c) := by
  show (cfg0.win 3).cut (grid0.coords t) ((R0.dat0 (F := Ideal) (V1 m) c).after 3 t) = _
  rw [R0.after0_3]
  unfold R0.out0_3
  rw [View.canon_unit_zero hz]
  simp only [View.ld_unit_zero (S := S512x1024) hz, View.ld_unit_zero (S := S1024x3072) hz, View.ld_unit_zero (S := S1x3072) hz]
  funext j
  let f : S512x3072.Idx → EReal :=
    Gen.k0_pay1 (F := Ideal) (R0.iblk0 (V1 m) c 0 t) (R0.iblk0 (V1 m) c 1 t) (R0.iblk0 (V1 m) c 2 t)
  let g : S512x3072.Idx → EReal := fun y => G0 m c (((cfg0.win 3).blk t).view.emb y)
  have ej : (ix2 (j 0) (j 1) : S512x3072.Idx) = j := (eq_ix2 (n0 := 512) (n1 := 3072) j).symm
  show f j = g j
  exact (congrArg f ej).symm.trans ((point_value m c t (j 0) (j 1)).trans (congrArg g ej))

/-- An index of the array is in point t's block iff each coordinate is in the block's range on its axis. -/
theorem mem_blk (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v6).slice (win0_3.rect t)).set ↔ _
  rw [View.set_slice_whole, Rect.mem_set_unit]
  exact Iff.rfl

/-- Every row is in some point's block: row r in block r / 512. -/
theorem covered (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  let t : Fin cfg0.N := ⟨(i 0).val / 512, by omega⟩
  obtain ⟨e00, e01, e10, e11, e20, e21, e30, e31⟩ := idx_facts t
  have htv : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The fused projections' array after the region: the specification's function of the arguments, entry by entry. -/
theorem qkv_final (c : Dev nD) : (R0.dat0 (F := Ideal) (V1 m) c).arrAt 3 cfg0.N
      = fun i => Cert.Attn.qkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) :=
  (R0.dat0 (F := Ideal) (V1 m) c).arrAt_eq_of_cover 3 (G0 m c) (fun t _ => flushed_eq m c t) (covered)

end Cert.KernelIdeal.Value0

end
-- ==== Proof.Value1.lean ====
/-
  The attention kernel's output block as a function of its three input blocks, over the extended reals.

  The body stores one block [1, 2048, 128]: the results of its two counted loops side by side, lanes 0–63 the
  first and lanes 64–127 the second. Each loop starts from the zero splat and runs four trips; trip j loads rows
  512·j … 512·j + 511 of the keys' and the values' blocks and adds to the carried [2048, 64] value the head output
  of the specification over those 512 keys (the per-key attention weight depends on the key only through its
  vector, and is normalised over the QUERY axis, so a chunk's weights are the whole axis's weights at the
  chunk's keys). Four chunks of 512 keys are the 2048 keys, and the sum over the keys regroups freely.
-/
import proofs.«179196_j52527450030207_2_alg».proof.Proof.Region1
import proofs.«179196_j52527450030207_2_alg».proof.Proof.PayValue
import Idealize.ShloMosaic.Lib.ValueIdx
import Idealize.ShloMosaic.Lib.ValueLayout
import Idealize.ShloMosaic.Lib.Pipeline.Value

set_option maxRecDepth 16384

noncomputable section

namespace Cert.KernelIdeal.Value1

open Cert.KernelIdeal Cert.KernelIdeal.Gen Cert.KernelIdeal.PayValue
open Idealize.ShloMosaic Idealize.ShloMosaic.ValueIdx Idealize.ShloMosaic.TcCoe Idealize.ShloMosaic.Tactic
open Idealize.SL Idealize.SL.Sem

/-! ## The key axis in four chunks -/

theorem trips1 : k1_t1_loop.trips = 4 := by decide
theorem trips2 : k1_t2_loop.trips = 4 := by decide

/-- Row kk of chunk j of the 2048 keys. -/
def row (j : ℕ) (hj : j < 4) (kk : Fin 512) : Fin 2048 := ⟨512 * j + kk.val, by omega⟩

/-- A sum over the 2048 keys is the sum over four chunks of 512. -/
theorem sum_chunks {M : Type} [AddCommMonoid M] (g : Fin 2048 → M) :
    ∑ k : Fin 2048, g k = ∑ j : Fin 4, ∑ kk : Fin 512, g ⟨512 * j.val + kk.val, by omega⟩ := by
  let e : Fin 4 × Fin 512 ≃ Fin 2048 := finProdFinEquiv.trans (finCongr (by norm_num))
  rw [← Equiv.sum_comp e g, Fintype.sum_prod_type]
  refine Finset.sum_congr rfl fun j _ => Finset.sum_congr rfl fun kk _ => congrArg g (Fin.ext ?_)
  show kk.val + 512 * j.val = 512 * j.val + kk.val
  omega

/-- The same with the four chunks written out, in the order the trips add them. -/
theorem sum_chunks4 {M : Type} [AddCommMonoid M] (g : Fin 2048 → M) :
    ∑ k : Fin 2048, g k
      = (∑ kk : Fin 512, g (row 0 (by omega) kk)) + (∑ kk : Fin 512, g (row 1 (by omega) kk))
        + (∑ kk : Fin 512, g (row 2 (by omega) kk)) + (∑ kk : Fin 512, g (row 3 (by omega) kk)) := by
  rw [sum_chunks, Fin.sum_univ_four]
  rfl

/-! ## Loop 1: one trip, opened once -/

/-- What trip k of loop 1 yields from the carried value: the trip's payload at the carried value and at
    the loads of rows 512·k … 512·k + 511 of the keys' and the values' buffers. -/
theorem trip1_eq {F : FTy → Type} [FloatOps F] [Named F] (𝒱 : Variants) (c : Dev nD) (bd : Option 𝒱.V) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (v0 : Vec F S2048x128 .bf16) (X3 : BufTy.Contents (Elt F) arg3.view.ty) (X4 : BufTy.Contents (Elt F) arg4.view.ty)
    (k : Fin k1_t1_loop.trips) (acc : FVec F S2048x64 .f32) :
    (trip_k1_t1 (F := F) 𝒱 c bd i arg2 harg2 arg3 harg3 arg4 harg4 arg5 harg5 v0 X3 X4 k).1 acc
      = k1_pay3 v0 acc
          (View.readAt (Elt F) arg3.view (Rect.unit (s := S2048x128) (k1_off1 k) S512x128.size (k1_off1_inb k)).toLoadRect X3)
          (View.readAt (Elt F) arg4.view (Rect.unit (s := S2048x128) (k1_off1 k) S512x128.size (k1_off1_inb k)).toLoadRect X4) := by
  unfold trip_k1_t1
  rfl

/-- A load of rows 512·k … 512·k + 511 of a whole [2048, 128] buffer, read at (kk, l), is the buffer's
    contents at (512·k + kk, l). -/
theorem chunk1_apply {F : FTy → Type} [FloatOps F] (m : Memref sig .tc .vmem S2048x128 .bf16) (hm : m.IsWhole) (x : Vec F S2048x128 .bf16)
    (k : Fin k1_t1_loop.trips) (hk : k.val < 4) (kk : Fin 512) (l : Fin 128) :
    View.readAt (Elt F) m.view (Rect.unit (s := S2048x128) (k1_off1 k) S512x128.size (k1_off1_inb k)).toLoadRect (hm.unread x) (ix2 kk l)
      = x (ix2 (row k.val hk kk) l) := by
  rw [View.readAt_eq_ld, hm.read_unread]
  show x ((Rect.unit (s := S2048x128) (k1_off1 k) S512x128.size (k1_off1_inb k)).toLoadRect.idx (ix2 kk l)) = x (ix2 (row k.val hk kk) l)
  refine congrArg x (funext fun a => Fin.ext ?_)
  match a with
  | ⟨0, _⟩ =>
    show k1_off1 k 0 + 1 * kk.val = 512 * k.val + kk.val
    rw [k1_off1_eq k]
    show 512 * k.val + 1 * kk.val = 512 * k.val + kk.val
    omega
  | ⟨1, _⟩ =>
    show k1_off1 k 1 + 1 * l.val = l.val
    rw [k1_off1_eq k]
    show 0 + 1 * l.val = l.val
    omega

/-- One trip of loop 1, read at (s, d): the carried value plus the head output over the trip's 512 keys. -/
theorem st1_step (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (v0 x1 x2 : Vec Ideal S2048x128 .bf16) (init : FVec Ideal S2048x64 .f32) (j : ℕ) (hj : j < 4) (s : Fin 2048) (d : Fin 64) :
    st_k1_t1 (F := Ideal) Variants.none c none i arg2 harg2 arg3 harg3 arg4 harg4 arg5 harg5 v0 (harg3.unread x1) (harg4.unread x2) init (j + 1) (ix2 s d)
      = st_k1_t1 (F := Ideal) Variants.none c none i arg2 harg2 arg3 harg3 arg4 harg4 arg5 harg5 v0 (harg3.unread x1) (harg4.unread x2) init j (ix2 s d)
        + Cert.Attn.headOut (n := 512) (fun s' e => v0 (ix2 s' (lane0 e)))
            (fun kk e => x1 (ix2 (row j hj kk) (lane0 e))) (fun kk e => x2 (ix2 (row j hj kk) (lane0 e))) s d := by
  have hk : j < k1_t1_loop.trips := by rw [trips1]; exact hj
  rw [show st_k1_t1 (F := Ideal) Variants.none c none i arg2 harg2 arg3 harg3 arg4 harg4 arg5 harg5 v0 (harg3.unread x1) (harg4.unread x2) init (j + 1)
        = tripR_k1_t1 (F := Ideal) Variants.none c none i arg2 harg2 arg3 harg3 arg4 harg4 arg5 harg5 v0 (harg3.unread x1) (harg4.unread x2) ⟨j, hk⟩
            (st_k1_t1 (F := Ideal) Variants.none c none i arg2 harg2 arg3 harg3 arg4 harg4 arg5 harg5 v0 (harg3.unread x1) (harg4.unread x2) init j)
      from st_k1_t1_succ (F := Ideal) Variants.none c none i arg2 harg2 arg3 harg3 arg4 harg4 arg5 harg5 v0 (harg3.unread x1) (harg4.unread x2) init ⟨j, hk⟩]
  unfold tripR_k1_t1
  rw [trip1_eq, pay3_apply]
  have e3 : (fun (kk : Fin 512) (e : Fin 64) =>
        View.readAt (Elt Ideal) arg3.view (Rect.unit (s := S2048x128) (k1_off1 ⟨j, hk⟩) S512x128.size (k1_off1_inb ⟨j, hk⟩)).toLoadRect (harg3.unread x1) (ix2 kk (lane0 e)))
      = fun kk e => x1 (ix2 (row j hj kk) (lane0 e)) :=
    funext fun kk => funext fun e => chunk1_apply arg3 harg3 x1 ⟨j, hk⟩ hj kk (lane0 e)
  have e4 : (fun (kk : Fin 512) (e : Fin 64) =>
        View.readAt (Elt Ideal) arg4.view (Rect.unit (s := S2048x128) (k1_off1 ⟨j, hk⟩) S512x128.size (k1_off1_inb ⟨j, hk⟩)).toLoadRect (harg4.unread x2) (ix2 kk (lane0 e)))
      = fun kk e => x2 (ix2 (row j hj kk) (lane0 e)) :=
    funext fun kk => funext fun e => chunk1_apply arg4 harg4 x2 ⟨j, hk⟩ hj kk (lane0 e)
  rw [e3, e4]

/-- The four trips of loop 1 from the zero splat, read at (s, d): the head output over all 2048 keys. -/
theorem st1_four (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (v0 x1 x2 : Vec Ideal S2048x128 .bf16) (s : Fin 2048) (d : Fin 64) :
    st_k1_t1 (F := Ideal) Variants.none c none i arg2 harg2 arg3 harg3 arg4 harg4 arg5 harg5 v0 (harg3.unread x1) (harg4.unread x2) (k1_pay2 (F := Ideal)) 4 (ix2 s d)
      = Cert.Attn.headOut (n := 2048) (fun s' e => v0 (ix2 s' (lane0 e)))
          (fun k e => x1 (ix2 k (lane0 e))) (fun k e => x2 (ix2 k (lane0 e))) s d := by
  rw [st1_step c i arg2 harg2 arg3 harg3 arg4 harg4 arg5 harg5 v0 x1 x2 _ 3 (by omega) s d, st1_step c i arg2 harg2 arg3 harg3 arg4 harg4 arg5 harg5 v0 x1 x2 _ 2 (by omega) s d,
    st1_step c i arg2 harg2 arg3 harg3 arg4 harg4 arg5 harg5 v0 x1 x2 _ 1 (by omega) s d, st1_step c i arg2 harg2 arg3 harg3 arg4 harg4 arg5 harg5 v0 x1 x2 _ 0 (by omega) s d]
  rw [show st_k1_t1 (F := Ideal) Variants.none c none i arg2 harg2 arg3 harg3 arg4 harg4 arg5 harg5 v0 (harg3.unread x1) (harg4.unread x2) (k1_pay2 (F := Ideal)) 0 = k1_pay2 (F := Ideal) from rfl,
    pay2_apply, zero_add]
  unfold Cert.Attn.headOut
  exact (sum_chunks4 (fun k : Fin 2048 =>
    Cert.Attn.weight (fun s' e => v0 (ix2 s' (lane0 e))) (fun e => x1 (ix2 k (lane0 e))) s * x2 (ix2 k (lane0 d)))).symm

/-! ## Loop 2: one trip, opened once -/

/-- What trip k of loop 2 yields from the carried value: the trip's payload at the carried value and at
    the loads of rows 512·k … 512·k + 511 of the keys' and the values' buffers. -/
theorem trip2_eq {F : FTy → Type} [FloatOps F] [Named F] (𝒱 : Variants) (c : Dev nD) (bd : Option 𝒱.V) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (v0 : Vec F S2048x128 .bf16) (X3 : BufTy.Contents (Elt F) arg3.view.ty) (X4 : BufTy.Contents (Elt F) arg4.view.ty)
    (k : Fin k1_t2_loop.trips) (acc : FVec F S2048x64 .f32) :
    (trip_k1_t2 (F := F) 𝒱 c bd i arg2 harg2 arg3 harg3 arg4 harg4 arg5 harg5 v0 X3 X4 k).1 acc
      = k1_pay5 v0 acc
          (View.readAt (Elt F) arg3.view (Rect.unit (s := S2048x128) (k1_off2 k) S512x128.size (k1_off2_inb k)).toLoadRect X3)
          (View.readAt (Elt F) arg4.view (Rect.unit (s := S2048x128) (k1_off2 k) S512x128.size (k1_off2_inb k)).toLoadRect X4) := by
  unfold trip_k1_t2
  rfl

/-- A load of rows 512·k … 512·k + 511 of a whole [2048, 128] buffer, read at (kk, l), is the buffer's
    contents at (512·k + kk, l). -/
theorem chunk2_apply {F : FTy → Type} [FloatOps F] (m : Memref sig .tc .vmem S2048x128 .bf16) (hm : m.IsWhole) (x : Vec F S2048x128 .bf16)
    (k : Fin k1_t2_loop.trips) (hk : k.val < 4) (kk : Fin 512) (l : Fin 128) :
    View.readAt (Elt F) m.view (Rect.unit (s := S2048x128) (k1_off2 k) S512x128.size (k1_off2_inb k)).toLoadRect (hm.unread x) (ix2 kk l)
      = x (ix2 (row k.val hk kk) l) := by
  rw [View.readAt_eq_ld, hm.read_unread]
  show x ((Rect.unit (s := S2048x128) (k1_off2 k) S512x128.size (k1_off2_inb k)).toLoadRect.idx (ix2 kk l)) = x (ix2 (row k.val hk kk) l)
  refine congrArg x (funext fun a => Fin.ext ?_)
  match a with
  | ⟨0, _⟩ =>
    show k1_off2 k 0 + 1 * kk.val = 512 * k.val + kk.val
    rw [k1_off2_eq k]
    show 512 * k.val + 1 * kk.val = 512 * k.val + kk.val
    omega
  | ⟨1, _⟩ =>
    show k1_off2 k 1 + 1 * l.val = l.val
    rw [k1_off2_eq k]
    show 0 + 1 * l.val = l.val
    omega

/-- One trip of loop 2, read at (s, d): the carried value plus the head output over the trip's 512 keys. -/
theorem st2_step (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (v0 x1 x2 : Vec Ideal S2048x128 .bf16) (init : FVec Ideal S2048x64 .f32) (j : ℕ) (hj : j < 4) (s : Fin 2048) (d : Fin 64) :
    st_k1_t2 (F := Ideal) Variants.none c none i arg2 harg2 arg3 harg3 arg4 harg4 arg5 harg5 v0 (harg3.unread x1) (harg4.unread x2) init (j + 1) (ix2 s d)
      = st_k1_t2 (F := Ideal) Variants.none c none i arg2 harg2 arg3 harg3 arg4 harg4 arg5 harg5 v0 (harg3.unread x1) (harg4.unread x2) init j (ix2 s d)
        + Cert.Attn.headOut (n := 512) (fun s' e => v0 (ix2 s' (lane1 e)))
            (fun kk e => x1 (ix2 (row j hj kk) (lane1 e))) (fun kk e => x2 (ix2 (row j hj kk) (lane1 e))) s d := by
  have hk : j < k1_t2_loop.trips := by rw [trips2]; exact hj
  rw [show st_k1_t2 (F := Ideal) Variants.none c none i arg2 harg2 arg3 harg3 arg4 harg4 arg5 harg5 v0 (harg3.unread x1) (harg4.unread x2) init (j + 1)
        = tripR_k1_t2 (F := Ideal) Variants.none c none i arg2 harg2 arg3 harg3 arg4 harg4 arg5 harg5 v0 (harg3.unread x1) (harg4.unread x2) ⟨j, hk⟩
            (st_k1_t2 (F := Ideal) Variants.none c none i arg2 harg2 arg3 harg3 arg4 harg4 arg5 harg5 v0 (harg3.unread x1) (harg4.unread x2) init j)
      from st_k1_t2_succ (F := Ideal) Variants.none c none i arg2 harg2 arg3 harg3 arg4 harg4 arg5 harg5 v0 (harg3.unread x1) (harg4.unread x2) init ⟨j, hk⟩]
  unfold tripR_k1_t2
  rw [trip2_eq, pay5_apply]
  have e3 : (fun (kk : Fin 512) (e : Fin 64) =>
        View.readAt (Elt Ideal) arg3.view (Rect.unit (s := S2048x128) (k1_off2 ⟨j, hk⟩) S512x128.size (k1_off2_inb ⟨j, hk⟩)).toLoadRect (harg3.unread x1) (ix2 kk (lane1 e)))
      = fun kk e => x1 (ix2 (row j hj kk) (lane1 e)) :=
    funext fun kk => funext fun e => chunk2_apply arg3 harg3 x1 ⟨j, hk⟩ hj kk (lane1 e)
  have e4 : (fun (kk : Fin 512) (e : Fin 64) =>
        View.readAt (Elt Ideal) arg4.view (Rect.unit (s := S2048x128) (k1_off2 ⟨j, hk⟩) S512x128.size (k1_off2_inb ⟨j, hk⟩)).toLoadRect (harg4.unread x2) (ix2 kk (lane1 e)))
      = fun kk e => x2 (ix2 (row j hj kk) (lane1 e)) :=
    funext fun kk => funext fun e => chunk2_apply arg4 harg4 x2 ⟨j, hk⟩ hj kk (lane1 e)
  rw [e3, e4]

/-- The four trips of loop 2 from the zero splat, read at (s, d): the head output over all 2048 keys. -/
theorem st2_four (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole)
    (v0 x1 x2 : Vec Ideal S2048x128 .bf16) (s : Fin 2048) (d : Fin 64) :
    st_k1_t2 (F := Ideal) Variants.none c none i arg2 harg2 arg3 harg3 arg4 harg4 arg5 harg5 v0 (harg3.unread x1) (harg4.unread x2) (k1_pay4 (F := Ideal)) 4 (ix2 s d)
      = Cert.Attn.headOut (n := 2048) (fun s' e => v0 (ix2 s' (lane1 e)))
          (fun k e => x1 (ix2 k (lane1 e))) (fun k e => x2 (ix2 k (lane1 e))) s d := by
  rw [st2_step c i arg2 harg2 arg3 harg3 arg4 harg4 arg5 harg5 v0 x1 x2 _ 3 (by omega) s d, st2_step c i arg2 harg2 arg3 harg3 arg4 harg4 arg5 harg5 v0 x1 x2 _ 2 (by omega) s d,
    st2_step c i arg2 harg2 arg3 harg3 arg4 harg4 arg5 harg5 v0 x1 x2 _ 1 (by omega) s d, st2_step c i arg2 harg2 arg3 harg3 arg4 harg4 arg5 harg5 v0 x1 x2 _ 0 (by omega) s d]
  rw [show st_k1_t2 (F := Ideal) Variants.none c none i arg2 harg2 arg3 harg3 arg4 harg4 arg5 harg5 v0 (harg3.unread x1) (harg4.unread x2) (k1_pay4 (F := Ideal)) 0 = k1_pay4 (F := Ideal) from rfl,
    pay4_apply, zero_add]
  unfold Cert.Attn.headOut
  exact (sum_chunks4 (fun k : Fin 2048 =>
    Cert.Attn.weight (fun s' e => v0 (ix2 s' (lane1 e))) (fun e => x1 (ix2 k (lane1 e))) s * x2 (ix2 k (lane1 d)))).symm

/-! ## The output block -/

/-- The zero offsets of the whole-block accesses. -/
theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

/-- What the body leaves in the output block: its one store of the whole block, the two loops' results
    side by side, each loop run for its four trips from the zero splat over the keys' and the values'
    blocks. -/
theorem out1_3_eq (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole) (x0 x1 x2 : Vec Ideal S2048x128 .bf16) :
    R1.out1_3 (F := Ideal) c i arg2 harg2 arg3 harg3 arg4 harg4 arg5 harg5 x0 x1 x2
      = k1_pay6 (F := Ideal)
          (st_k1_t1 (F := Ideal) Variants.none c none i arg2 harg2 arg3 harg3 arg4 harg4 arg5 harg5 x0 (harg3.unread x1) (harg4.unread x2) (k1_pay2 (F := Ideal)) 4)
          (st_k1_t2 (F := Ideal) Variants.none c none i arg2 harg2 arg3 harg3 arg4 harg4 arg5 harg5 x0 (harg3.unread x1) (harg4.unread x2) (k1_pay4 (F := Ideal)) 4) := by
  unfold R1.out1_3
  rw [View.read_writes_eq_canon _ _ _ (R1.cover1_3 c i arg2 harg2 arg3 harg3 arg4 harg4 arg5 harg5 x0 x1 x2)]
  unfold R1.kernelRun1
  dsimp only
  rw [View.canon_unit_zero hz3]
  simp only [View.readAt_eq_ld, Memref.IsWhole.read_unread, View.ld_unit_zero (S := S2048x128) hz2]
  rw [show Scf.trips (0#32) (Scalar.addi 0#32 4#32) 1#32 = 4 from by decide]

/-- THE OUTPUT BLOCK AS A FUNCTION OF THE INPUT BLOCKS. At query s, lanes 0–63 hold the first head's
    attention output over all 2048 keys and lanes 64–127 the second head's, each from its own 64 lanes of the
    queries', keys' and values' blocks. -/
theorem out1_3_apply (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x2048x128 .f32) (harg5 : arg5.IsWhole) (x0 x1 x2 : Vec Ideal S2048x128 .bf16) (s : Fin 2048) (e : Fin 64) :
    R1.out1_3 (F := Ideal) c i arg2 harg2 arg3 harg3 arg4 harg4 arg5 harg5 x0 x1 x2 (ix3 (0 : Fin 1) s (lane0 e))
        = Cert.Attn.headOut (n := 2048) (fun s' d => x0 (ix2 s' (lane0 d))) (fun k d => x1 (ix2 k (lane0 d))) (fun k d => x2 (ix2 k (lane0 d))) s e
      ∧ R1.out1_3 (F := Ideal) c i arg2 harg2 arg3 harg3 arg4 harg4 arg5 harg5 x0 x1 x2 (ix3 (0 : Fin 1) s (lane1 e))
        = Cert.Attn.headOut (n := 2048) (fun s' d => x0 (ix2 s' (lane1 d))) (fun k d => x1 (ix2 k (lane1 d))) (fun k d => x2 (ix2 k (lane1 d))) s e := by
  rw [out1_3_eq]
  refine ⟨((pay6_apply _ _ s e).1).trans ?_, ((pay6_apply _ _ s e).2).trans ?_⟩
  · exact st1_four c i arg2 harg2 arg3 harg3 arg4 harg4 arg5 harg5 x0 x1 x2 s e
  · exact st2_four c i arg2 harg2 arg3 harg3 arg4 harg4 arg5 harg5 x0 x1 x2 s e

end Cert.KernelIdeal.Value1

end
-- ==== Proof.Value2.lean ====
/-
  From blocks to the array: the attention region's result array, after the write-backs of all 32 grid
  points, is the specification G, given that the projections' array holds the three layers' projections
  side by side.

  Grid point t is (batch entry t / 8, head pair t % 8). Its three input blocks are rows 2048·(t / 8) …
  of the projections' array at the pair's 128 columns inside the queries', the keys' and the values'
  thirds; so each block entry is a projection of the specification, and the lanes 0–63 and 64–127 of a
  block are the two heads 2·(t % 8) and 2·(t % 8) + 1. What the body leaves at lane e of either half is
  that head's output over all 2048 keys, which is the specification's entry at the block's place in the
  result array; the 32 blocks tile the array.
-/
import proofs.«179196_j52527450030207_2_alg».proof.Proof.Region1
import proofs.«179196_j52527450030207_2_alg».proof.Proof.SpecQkv
import proofs.«179196_j52527450030207_2_alg».proof.Proof.PayValue
import proofs.«179196_j52527450030207_2_alg».proof.Proof.Value1
import Idealize.ShloMosaic.Lib.Pipeline.Value
import Idealize.ShloMosaic.Lib.ValueIdx

noncomputable section

namespace Cert.KernelIdeal.Value2

open Cert.KernelIdeal Cert.KernelIdeal.Gen Cert.KernelIdeal.PayValue
open Idealize.ShloMosaic Idealize.ShloMosaic.TcCoe Idealize.SL.Sem Idealize.ShloMosaic.ValueIdx
open Idealize.ShloMosaic.Pipeline (Dat)

/-- The printed index maps over the 32 grid points: point t is (batch entry t / 8, head pair t % 8); the
    queries', keys' and values' windows read block row t / 8 at block columns t % 8, 8 + t % 8 and
    16 + t % 8 of the projections' array; the output's window writes block (t / 8, 0, t % 8). -/
theorem idx_facts : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 8 + t.val % 8
    ∧ win1_2.index t (0 : Fin 2) = t.val / 8 ∧ win1_2.index t (1 : Fin 2) = 16 + t.val % 8
    ∧ win1_3.index t (0 : Fin 3) = t.val / 8 ∧ win1_3.index t (1 : Fin 3) = 0 ∧ win1_3.index t (2 : Fin 3) = t.val % 8 :=
  (by decide +kernel : ∀ t : Fin grid1.N, _)

section
variable (V : (c : Dev nD) → (b : Ref sig .tc) → Buf (Elt Ideal) ((c : Thread nD τ).loc b))

/-- The queries' block at point t, entry (s, l): row 2048·(t / 8) + s, column 128·(t % 8) + l of the
    projections' array. -/
theorem iblk0_apply (c : Dev nD) (t : Fin cfg1.N) (s : Fin 2048) (l : Fin 128) (k : S8192x3072.Idx)
    (hk0 : (k 0).val = 2048 * (t.val / 8) + s.val) (hk1 : (k 1).val = 128 * (t.val % 8) + l.val) :
    (R1.iblk1 V c 0 t : Vec Ideal S2048x128 .bf16) (ix2 s l) = (V c main_v6 : S8192x3072.Idx → EReal) k := by
  obtain ⟨e0, e1, -⟩ := idx_facts t
  unfold R1.iblk1
  rw [View.read_apply]
  show V c main_v6 _ = V c main_v6 _
  congr 1
  funext a
  apply Fin.ext
  match a with
  | ⟨0, _⟩ => show win1_0.index t 0 * 2048 + 1 * s.val = (k 0).val; rw [e0, hk0]; omega
  | ⟨1, _⟩ => show win1_0.index t 1 * 128 + 1 * l.val = (k 1).val; rw [e1, hk1]; omega

/-- The keys' block: the same row block, column 128·(8 + t % 8) + l. -/
theorem iblk1_apply (c : Dev nD) (t : Fin cfg1.N) (s : Fin 2048) (l : Fin 128) (k : S8192x3072.Idx)
    (hk0 : (k 0).val = 2048 * (t.val / 8) + s.val) (hk1 : (k 1).val = 128 * (8 + t.val % 8) + l.val) :
    (R1.iblk1 V c 1 t : Vec Ideal S2048x128 .bf16) (ix2 s l) = (V c main_v6 : S8192x3072.Idx → EReal) k := by
  obtain ⟨-, -, e0, e1, -⟩ := idx_facts t
  unfold R1.iblk1
  rw [View.read_apply]
  show V c main_v6 _ = V c main_v6 _
  congr 1
  funext a
  apply Fin.ext
  match a with
  | ⟨0, _⟩ => show win1_1.index t 0 * 2048 + 1 * s.val = (k 0).val; rw [e0, hk0]; omega
  | ⟨1, _⟩ => show win1_1.index t 1 * 128 + 1 * l.val = (k 1).val; rw [e1, hk1]; omega

/-- The values' block: the same row block, column 128·(16 + t % 8) + l. -/
theorem iblk2_apply (c : Dev nD) (t : Fin cfg1.N) (s : Fin 2048) (l : Fin 128) (k : S8192x3072.Idx)
    (hk0 : (k 0).val = 2048 * (t.val / 8) + s.val) (hk1 : (k 1).val = 128 * (16 + t.val % 8) + l.val) :
    (R1.iblk1 V c 2 t : Vec Ideal S2048x128 .bf16) (ix2 s l) = (V c main_v6 : S8192x3072.Idx → EReal) k := by
  obtain ⟨-, -, -, -, e0, e1, -⟩ := idx_facts t
  unfold R1.iblk1
  rw [View.read_apply]
  show V c main_v6 _ = V c main_v6 _
  congr 1
  funext a
  apply Fin.ext
  match a with
  | ⟨0, _⟩ => show win1_2.index t 0 * 2048 + 1 * s.val = (k 0).val; rw [e0, hk0]; omega
  | ⟨1, _⟩ => show win1_2.index t 1 * 128 + 1 * l.val = (k 1).val; rw [e1, hk1]; omega

end

section Spec
open Cert.Attn
variable (x : FVec Ideal Cert.Attn.SX .f32) (Wq : FVec Ideal Cert.Attn.SW .f32) (bq : FVec Ideal Cert.Attn.SB .f32)
  (Wk : FVec Ideal Cert.Attn.SW .f32) (bk : FVec Ideal Cert.Attn.SB .f32) (Wv : FVec Ideal Cert.Attn.SW .f32) (bv : FVec Ideal Cert.Attn.SB .f32)

/-- Row 2048·b + s, column 1024·j + n of the projections' array is layer j's projection at (b, s, n). -/
theorem qkv_at (j : Nat) (b : Fin 4) (s : Fin 2048) (n : Fin 1024) (r : Fin 8192) (col : Fin 3072)
    (hr : r.val = 2048 * b.val + s.val) (hc : col.val = 1024 * j + n.val) :
    qkv x Wq bq Wk bk Wv bv r col = proj x (sel3 j Wq Wk Wv) (sel3 j bq bk bv) b s n := by
  unfold qkv
  have h1 : col.val / 1024 = j := by have := n.isLt; omega
  have e1 : ∀ p : r.val / 2048 < 4, (⟨r.val / 2048, p⟩ : Fin 4) = b := fun p =>
    Fin.ext (by show r.val / 2048 = b.val; have := s.isLt; omega)
  have e2 : ∀ p : r.val % 2048 < 2048, (⟨r.val % 2048, p⟩ : Fin 2048) = s := fun p =>
    Fin.ext (by show r.val % 2048 = s.val; have := s.isLt; omega)
  have e3 : ∀ p : col.val % 1024 < 1024, (⟨col.val % 1024, p⟩ : Fin 1024) = n := fun p =>
    Fin.ext (by show col.val % 1024 = n.val; have := n.isLt; omega)
  rw [h1, e1, e2, e3]

/-- The specification at batch entry b, position s, feature n. -/
theorem G_at (b : Fin 4) (s : Fin 2048) (n : Fin 1024) :
    G x Wq bq Wk bk Wv bv (ix3 b s n)
      = headOut (n := 2048) (fun s' d => proj x Wq bq b s' (feat (headOf n) d))
          (fun s' d => proj x Wk bk b s' (feat (headOf n) d)) (fun s' d => proj x Wv bv b s' (feat (headOf n) d)) s (laneOf n) := rfl

/-- A head's output depends on its three arguments entry by entry. -/
theorem headOut_congr {n : Nat} {Q Q' : Fin 2048 → Fin 64 → EReal} {K K' V V' : Fin n → Fin 64 → EReal}
    (hQ : ∀ s d, Q s d = Q' s d) (hK : ∀ k d, K k d = K' k d) (hV : ∀ k d, V k d = V' k d) (s : Fin 2048) (d : Fin 64) :
    headOut Q K V s d = headOut Q' K' V' s d := by
  obtain rfl : Q = Q' := funext fun s => funext fun d => hQ s d
  obtain rfl : K = K' := funext fun s => funext fun d => hK s d
  obtain rfl : V = V' := funext fun s => funext fun d => hV s d
  rfl

/-- Lane l of head pair g among the 1024 features. -/
def pairCol (g : Fin 8) (l : Fin 128) : Fin 1024 := ⟨128 * g.val + l.val, by omega⟩

theorem feat_head_lane0 (g : Fin 8) (e d : Fin 64) : feat (headOf (pairCol g (lane0 e))) d = pairCol g (lane0 d) :=
  Fin.ext (by simp only [feat, headOf, pairCol, lane0]; omega)
theorem feat_head_lane1 (g : Fin 8) (e d : Fin 64) : feat (headOf (pairCol g (lane1 e))) d = pairCol g (lane1 d) :=
  Fin.ext (by simp only [feat, headOf, pairCol, lane1]; omega)
theorem laneOf_lane0 (g : Fin 8) (e : Fin 64) : laneOf (pairCol g (lane0 e)) = e :=
  Fin.ext (by simp only [laneOf, pairCol, lane0]; omega)
theorem laneOf_lane1 (g : Fin 8) (e : Fin 64) : laneOf (pairCol g (lane1 e)) = e :=
  Fin.ext (by simp only [laneOf, pairCol, lane1]; omega)

end Spec

/-- The batch entry and the head pair of grid point t. -/
def ptBatch (t : Fin cfg1.N) : Fin 4 := ⟨t.val / 8, by have h : t.val < 32 := Nat.lt_of_lt_of_eq t.isLt N_1; omega⟩
def ptPair (t : Fin cfg1.N) : Fin 8 := ⟨t.val % 8, by omega⟩

/-- A lane of a pair's 128 is a lane of its first head or of its second. -/
theorem lane_cases (n : Fin 128) : (∃ e : Fin 64, n = lane0 e) ∨ (∃ e : Fin 64, n = lane1 e) := by
  by_cases h : n.val < 64
  · exact .inl ⟨⟨n.val, h⟩, Fin.ext rfl⟩
  · exact .inr ⟨⟨n.val - 64, by omega⟩, Fin.ext (by show n.val = 64 + (n.val - 64); omega)⟩

section Blocks
open Cert.Attn
variable (V : (c : Dev nD) → (b : Ref sig .tc) → Buf (Elt Ideal) ((c : Thread nD τ).loc b)) (c : Dev nD)
  (x : FVec Ideal Cert.Attn.SX .f32) (Wq : FVec Ideal Cert.Attn.SW .f32) (bq : FVec Ideal Cert.Attn.SB .f32)
  (Wk : FVec Ideal Cert.Attn.SW .f32) (bk : FVec Ideal Cert.Attn.SB .f32) (Wv : FVec Ideal Cert.Attn.SW .f32) (bv : FVec Ideal Cert.Attn.SB .f32)
  (h6 : (V c main_v6 : S8192x3072.Idx → EReal) = fun i => Cert.Attn.qkv x Wq bq Wk bk Wv bv (i 0) (i 1))
include h6

/-- The queries' block at point t holds the queries' projection of the point's batch entry at the pair's lanes. -/
theorem iblk_q (t : Fin cfg1.N) (s : Fin 2048) (l : Fin 128) :
    (R1.iblk1 V c 0 t : Vec Ideal S2048x128 .bf16) (ix2 s l) = proj x Wq bq (ptBatch t) s (pairCol (ptPair t) l) := by
  have hb : t.val / 8 < 4 := (ptBatch t).isLt
  refine (iblk0_apply V c t s l (ix2 ⟨2048 * (t.val / 8) + s.val, by omega⟩ ⟨128 * (t.val % 8) + l.val, by omega⟩) rfl rfl).trans ?_
  rw [h6]
  exact qkv_at x Wq bq Wk bk Wv bv 0 (ptBatch t) s (pairCol (ptPair t) l) _ _ rfl
    (by show 128 * (t.val % 8) + l.val = 1024 * 0 + (128 * (t.val % 8) + l.val); omega)

/-- The keys' block holds the keys' projection. -/
theorem iblk_k (t : Fin cfg1.N) (s : Fin 2048) (l : Fin 128) :
    (R1.iblk1 V c 1 t : Vec Ideal S2048x128 .bf16) (ix2 s l) = proj x Wk bk (ptBatch t) s (pairCol (ptPair t) l) := by
  have hb : t.val / 8 < 4 := (ptBatch t).isLt
  refine (iblk1_apply V c t s l (ix2 ⟨2048 * (t.val / 8) + s.val, by omega⟩ ⟨128 * (8 + t.val % 8) + l.val, by omega⟩) rfl rfl).trans ?_
  rw [h6]
  exact qkv_at x Wq bq Wk bk Wv bv 1 (ptBatch t) s (pairCol (ptPair t) l) _ _ rfl
    (by show 128 * (8 + t.val % 8) + l.val = 1024 * 1 + (128 * (t.val % 8) + l.val); omega)

/-- The values' block holds the values' projection. -/
theorem iblk_v (t : Fin cfg1.N) (s : Fin 2048) (l : Fin 128) :
    (R1.iblk1 V c 2 t : Vec Ideal S2048x128 .bf16) (ix2 s l) = proj x Wv bv (ptBatch t) s (pairCol (ptPair t) l) := by
  have hb : t.val / 8 < 4 := (ptBatch t).isLt
  refine (iblk2_apply V c t s l (ix2 ⟨2048 * (t.val / 8) + s.val, by omega⟩ ⟨128 * (16 + t.val % 8) + l.val, by omega⟩) rfl rfl).trans ?_
  rw [h6]
  exact qkv_at x Wq bq Wk bk Wv bv 2 (ptBatch t) s (pairCol (ptPair t) l) _ _ rfl
    (by show 128 * (16 + t.val % 8) + l.val = 1024 * 2 + (128 * (t.val % 8) + l.val); omega)

/-- What point t leaves in the output's buffer, at the first head's lanes: the specification at the
    point's batch entry and the pair's feature. -/
theorem out_lane0 (t : Fin cfg1.N) (s : Fin 2048) (e : Fin 64) :
    R1.outsAt1 (F := Ideal) V c t (ix3 (0 : Fin 1) s (lane0 e))
      = G x Wq bq Wk bk Wv bv (ix3 (ptBatch t) s (pairCol (ptPair t) (lane0 e))) := by
  unfold R1.outsAt1
  refine ((Value1.out1_3_apply c _ _ _ _ _ _ _ _ _ (R1.iblk1 V c 0 t) (R1.iblk1 V c 1 t) (R1.iblk1 V c 2 t) s e).1).trans ?_
  rw [G_at, laneOf_lane0]
  simp only [feat_head_lane0]
  exact headOut_congr (fun s' d => iblk_q V c x Wq bq Wk bk Wv bv h6 t s' (lane0 d))
    (fun k d => iblk_k V c x Wq bq Wk bk Wv bv h6 t k (lane0 d)) (fun k d => iblk_v V c x Wq bq Wk bk Wv bv h6 t k (lane0 d)) s e

/-- The same at the second head's lanes. -/
theorem out_lane1 (t : Fin cfg1.N) (s : Fin 2048) (e : Fin 64) :
    R1.outsAt1 (F := Ideal) V c t (ix3 (0 : Fin 1) s (lane1 e))
      = G x Wq bq Wk bk Wv bv (ix3 (ptBatch t) s (pairCol (ptPair t) (lane1 e))) := by
  unfold R1.outsAt1
  refine ((Value1.out1_3_apply c _ _ _ _ _ _ _ _ _ (R1.iblk1 V c 0 t) (R1.iblk1 V c 1 t) (R1.iblk1 V c 2 t) s e).2).trans ?_
  rw [G_at, laneOf_lane1]
  simp only [feat_head_lane1]
  exact headOut_congr (fun s' d => iblk_q V c x Wq bq Wk bk Wv bv h6 t s' (lane1 d))
    (fun k d => iblk_k V c x Wq bq Wk bk Wv bv h6 t k (lane1 d)) (fun k d => iblk_v V c x Wq bq Wk bk Wv bv h6 t k (lane1 d)) s e

/-- What point t writes back is block t of the specification. -/
theorem flushed_eq (t : Fin cfg1.N) :
    (R1.dat1 (F := Ideal) V c).flushed 3 t = ((cfg1.win 3).blk t).view.read (Elt Ideal) (G x Wq bq Wk bk Wv bv) := by
  show (cfg1.win 3).cut (grid1.coords t) ((R1.dat1 (F := Ideal) V c).after 3 t) = _
  rw [R1.after1_3]
  refine funext fun (j : S1x2048x128.Idx) => ?_
  obtain ⟨s, n, rfl⟩ : ∃ (s : Fin 2048) (n : Fin 128), j = ix3 (0 : Fin 1) s n :=
    ⟨⟨(j 1).val, (j 1).isLt⟩, ⟨(j 2).val, (j 2).isLt⟩, funext fun a => by
      match a with
      | ⟨0, _⟩ => exact Fin.ext (by have h : (j 0).val < 1 := (j 0).isLt; show (j 0).val = 0; omega)
      | ⟨1, _⟩ => rfl
      | ⟨2, _⟩ => rfl⟩
  have hemb : ((cfg1.win 3).blk t).view.emb (ix3 (0 : Fin 1) s n) = ix3 (ptBatch t) s (pairCol (ptPair t) n) := by
    obtain ⟨-, -, -, -, -, -, e0, e1, e2⟩ := idx_facts t
    funext a; apply Fin.ext
    match a with
    | ⟨0, _⟩ => show win1_3.index t 0 * 1 + 1 * 0 = t.val / 8; rw [e0]; omega
    | ⟨1, _⟩ => show win1_3.index t 1 * 2048 + 1 * s.val = s.val; rw [e1]; omega
    | ⟨2, _⟩ => show win1_3.index t 2 * 128 + 1 * n.val = 128 * (t.val % 8) + n.val; rw [e2]; omega
  show R1.outsAt1 (F := Ideal) V c t (ix3 (0 : Fin 1) s n) = G x Wq bq Wk bk Wv bv (((cfg1.win 3).blk t).view.emb (ix3 (0 : Fin 1) s n))
  rw [hemb]
  rcases lane_cases n with ⟨e, rfl⟩ | ⟨e, rfl⟩
  · exact out_lane0 V c x Wq bq Wk bk Wv bv h6 t s e
  · exact out_lane1 V c x Wq bq Wk bk Wv bv h6 t s e

end Blocks

/-- An index of the result array is in point t's block iff each coordinate is in the block's range on its axis. -/
theorem mem_blk (t : Fin cfg1.N) (i : S4x2048x1024.Idx) :
    i ∈ ((cfg1.win 3).blk t).view.set ↔ ∀ a : Fin 3, win1_3.index t a * S1x2048x128.size a ≤ (i a).val ∧ (i a).val < win1_3.index t a * S1x2048x128.size a + S1x2048x128.size a := by
  show i ∈ ((View.whole main_v7).slice (win1_3.rect t)).set ↔ _
  rw [View.set_slice_whole, Rect.mem_set_unit]
  exact Iff.rfl

/-- Every entry (b, s, n) of the result array is in the block of the point 8·b + n / 128, which is written back. -/
theorem cover (i : S4x2048x1024.Idx) : ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  obtain ⟨t, ht⟩ : ∃ t : Fin cfg1.N, t.val = 8 * (i 0).val + (i 2).val / 128 :=
    ⟨⟨8 * (i 0).val + (i 2).val / 128, by rw [show cfg1.N = 32 from N_1]; omega⟩, rfl⟩
  obtain ⟨-, -, -, -, -, -, e0, e1, e2⟩ := idx_facts t
  refine ⟨t, flush1_3 t, ?_⟩
  rw [mem_blk]
  intro a
  match a with
  | ⟨0, _⟩ => show win1_3.index t 0 * 1 ≤ (i 0).val ∧ (i 0).val < win1_3.index t 0 * 1 + 1; rw [e0, ht]; omega
  | ⟨1, _⟩ => show win1_3.index t 1 * 2048 ≤ (i 1).val ∧ (i 1).val < win1_3.index t 1 * 2048 + 2048; rw [e1]; omega
  | ⟨2, _⟩ => show win1_3.index t 2 * 128 ≤ (i 2).val ∧ (i 2).val < win1_3.index t 2 * 128 + 128; rw [e2, ht]; omega

/-- THE RESULT ARRAY after all 32 write-backs is the specification, given that the projections' array holds
    the three layers' projections side by side. -/
theorem attn_final (V : (c : Dev nD) → (b : Ref sig .tc) → Buf (Elt Ideal) ((c : Thread nD τ).loc b)) (c : Dev nD)
    (x : FVec Ideal Cert.Attn.SX .f32) (Wq : FVec Ideal Cert.Attn.SW .f32) (bq : FVec Ideal Cert.Attn.SB .f32) (Wk : FVec Ideal Cert.Attn.SW .f32) (bk : FVec Ideal Cert.Attn.SB .f32) (Wv : FVec Ideal Cert.Attn.SW .f32) (bv : FVec Ideal Cert.Attn.SB .f32)
    (h6 : (V c main_v6 : S8192x3072.Idx → EReal) = fun i => Cert.Attn.qkv x Wq bq Wk bk Wv bv (i 0) (i 1)) :
    (R1.dat1 (F := Ideal) V c).arrAt 3 cfg1.N = Cert.Attn.G x Wq bq Wk bk Wv bv :=
  (R1.dat1 (F := Ideal) V c).arrAt_eq_of_cover 3 (Cert.Attn.G x Wq bq Wk bk Wv bv)
    (fun t _ => flushed_eq V c x Wq bq Wk bk Wv bv h6 t) cover

end Cert.KernelIdeal.Value2

end
-- ==== Proof.RefValue.lean ====
/-
  The reference program's result, read entry by entry, is the specification G.

  The generated reading of the reference gives each of its operations at an index from its operands at indices.
  Chained: a projection (a contraction over the 1024 input features plus a bias, reshaped to heads of 64 lanes
  and transposed) at (b, h, s, d) is proj at batch entry b, position s, feature 64h + d; the contraction of
  queries against keys over the 64 lanes, divided by the constant 10, is the scaled score; the maximum over the
  QUERY axis from −∞ is the column's fold of max (the following maximum with −∞ changes nothing, a fold being at
  least its start); subtracting it, the exponential, the sum over the query axis from 0, and the quotient are the
  shifted exponential, the normaliser and the weight; the contraction of the weights against the values over the
  2048 keys is one head's output; the transpose back and the reshape put head h, lane d at feature 64h + d.
-/
import proofs.«179196_j52527450030207_2_alg».proof.Proof.Gen.ReferenceIdeal.Read
import proofs.«179196_j52527450030207_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.ValueIdx

local notation "TX" => BufTy.Contents (Elt Ideal) (BufTy.mk Cert.ReferenceIdeal.S4x2048x1024 EltTy.f32)
local notation "TW" => BufTy.Contents (Elt Ideal) (BufTy.mk Cert.ReferenceIdeal.S1024x1024 EltTy.f32)
local notation "TB" => BufTy.Contents (Elt Ideal) (BufTy.mk Cert.ReferenceIdeal.S1024 EltTy.f32)

/-! ## The three projections -/

/-- The flat position of (b, s, h, d) in [4, 2048, 16, 64] splits as (b, s, 64h + d) in [4, 2048, 1024]. -/
theorem split_idx (b : Fin 4) (s : Fin 2048) (h : Fin 16) (d : Fin 64) :
    idx_main_v4 (ix4 b s h d) = ix3 b s (feat h d) := by
  funext a
  apply Fin.ext
  have hb := b.isLt; have hs := s.isLt; have hh := h.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

/-- The query projection at batch entry b, head h, position s, lane d. -/
theorem q_apply (x0 : TX) (x1 : TW) (x2 : TB) (b : Fin 4) (h : Fin 16) (s : Fin 2048) (d : Fin 64) :
    val_main_v5 (F := Ideal) x0 x1 x2 (ix4 b h s d) = proj x0 x1 x2 b s (feat h d) := by
  rw [val_main_v5_apply, show idx_main_v5 (ix4 b h s d) = ix4 b s h d from
        funext fun a => Fin.ext (by match a with | ⟨0, _⟩ => rfl | ⟨1, _⟩ => rfl | ⟨2, _⟩ => rfl | ⟨3, _⟩ => rfl),
      val_main_v4_apply, split_idx, val_main_v3_apply, val_main_v0_apply, val_main_v2_apply, val_main_v1_apply]
  unfold proj
  refine congrArg₂ (· + ·) (Finset.sum_congr rfl fun e _ => congrArg₂ (· * ·) (congrArg x0 ?_) (congrArg x1 ?_)) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key projection at batch entry b, head h, position s, lane d. -/
theorem k_apply (x0 : TX) (x3 : TW) (x4 : TB) (b : Fin 4) (h : Fin 16) (s : Fin 2048) (d : Fin 64) :
    val_main_v11 (F := Ideal) x0 x3 x4 (ix4 b h s d) = proj x0 x3 x4 b s (feat h d) := by
  rw [val_main_v11_apply, show idx_main_v11 (ix4 b h s d) = ix4 b s h d from
        funext fun a => Fin.ext (by match a with | ⟨0, _⟩ => rfl | ⟨1, _⟩ => rfl | ⟨2, _⟩ => rfl | ⟨3, _⟩ => rfl),
      val_main_v10_apply, show idx_main_v10 (ix4 b s h d) = ix3 b s (feat h d) from split_idx b s h d,
      val_main_v9_apply, val_main_v6_apply, val_main_v8_apply, val_main_v7_apply]
  unfold proj
  refine congrArg₂ (· + ·) (Finset.sum_congr rfl fun e _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value projection at batch entry b, head h, position s, lane d. -/
theorem v_apply (x0 : TX) (x5 : TW) (x6 : TB) (b : Fin 4) (h : Fin 16) (s : Fin 2048) (d : Fin 64) :
    val_main_v17 (F := Ideal) x0 x5 x6 (ix4 b h s d) = proj x0 x5 x6 b s (feat h d) := by
  rw [val_main_v17_apply, show idx_main_v17 (ix4 b h s d) = ix4 b s h d from
        funext fun a => Fin.ext (by match a with | ⟨0, _⟩ => rfl | ⟨1, _⟩ => rfl | ⟨2, _⟩ => rfl | ⟨3, _⟩ => rfl),
      val_main_v16_apply, show idx_main_v16 (ix4 b s h d) = ix3 b s (feat h d) from split_idx b s h d,
      val_main_v15_apply, val_main_v12_apply, val_main_v14_apply, val_main_v13_apply]
  unfold proj
  refine congrArg₂ (· + ·) (Finset.sum_congr rfl fun e _ => congrArg₂ (· * ·) (congrArg x0 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-! ## The constants -/

/-- The pattern 0x41200000 denotes the real 10. -/
theorem ofBits_ten : Ideal.ofBits .f32 0x41200000#32 = ((10 : ℝ) : EReal) := by
  simp [Ideal.ofBits, Ideal.ieee, -EReal.coe_mul]; norm_num

/-! ## Scores, column maxima, exponentials, column sums, weights -/

/-- One head's queries, and the vector of one key, as the specification takes them. -/
abbrev Qf (x0 : TX) (x1 : TW) (x2 : TB) (b : Fin 4) (h : Fin 16) : Fin 2048 → Fin 64 → EReal :=
  fun s d => proj x0 x1 x2 b s (feat h d)
abbrev Kf (x0 : TX) (x3 : TW) (x4 : TB) (b : Fin 4) (h : Fin 16) (t : Fin 2048) : Fin 64 → EReal :=
  fun d => proj x0 x3 x4 b t (feat h d)

/-- The scaled score of query s against key t. -/
theorem score_apply (x0 : TX) (x1 : TW) (x2 : TB) (x3 : TW) (x4 : TB) (b : Fin 4) (h : Fin 16) (s t : Fin 2048) :
    val_main_v20 (F := Ideal) x0 x1 x2 x3 x4 (ix4 b h s t) = score (Qf x0 x1 x2 b h) (Kf x0 x3 x4 b h t) s := by
  rw [val_main_v20_apply, Ideal.hostDivf_def, val_main_v19_apply, val_main_cst_apply, Ideal.ofBits_def, ofBits_ten,
      Ideal.div_coe (by norm_num), val_main_v18_apply]
  unfold score
  refine congrArg (· * _) (Finset.sum_congr rfl fun d _ => ?_)
  rw [show lidx_main_v18 (ix4 b h s t) d = ix4 b h s d from
        funext fun a => Fin.ext (by match a with | ⟨0, _⟩ => rfl | ⟨1, _⟩ => rfl | ⟨2, _⟩ => rfl | ⟨3, _⟩ => rfl),
      show ridx_main_v18 (ix4 b h s t) d = ix4 b h t d from
        funext fun a => Fin.ext (by match a with | ⟨0, _⟩ => rfl | ⟨1, _⟩ => rfl | ⟨2, _⟩ => rfl | ⟨3, _⟩ => rfl),
      q_apply, k_apply]

/-- The [4,16,2048,2048] scores reduce over their query axis to [4,16,2048]. -/
theorem reducesQ : S4x16x2048x2048.Reduces [2] S4x16x2048 := by decide

/-- The largest score against key t over all queries: the reduction is the fold of max from −∞ over the query
    axis, and the maximum with −∞ that follows it changes nothing, the fold being at least its start. -/
theorem colMax_apply (x0 : TX) (x1 : TW) (x2 : TB) (x3 : TW) (x4 : TB) (b : Fin 4) (h : Fin 16) (t : Fin 2048) :
    val_main_v23 (F := Ideal) x0 x1 x2 x3 x4 (ix3 b h t) = colMax (Qf x0 x1 x2 b h) (Kf x0 x3 x4 b h t) := by
  have hfold : val_main_v21 (F := Ideal) x0 x1 x2 x3 x4 (ix3 b h t)
      = (Finset.univ : Finset (Fin 2048)).fold max (Ideal.ofBits .f32 0xFF800000#32)
          (fun s => score (Qf x0 x1 x2 b h) (Kf x0 x3 x4 b h t) s) := by
    have hy : ∀ s : Fin 2048, val_main_v20 (F := Ideal) x0 x1 x2 x3 x4 (ix4 b h s t)
        = score (Qf x0 x1 x2 b h) (Kf x0 x3 x4 b h t) s := fun s => score_apply x0 x1 x2 x3 x4 b h s t
    unfold val_main_v21
    generalize val_main_v20 (F := Ideal) x0 x1 x2 x3 x4 = y at hy ⊢
    refine (Host.reduce_eq_fold_single (FloatOps.maximumf (F := Ideal) (φ := .f32)) y _ reducesTo_S4x16x2048x2048_S4x16x2048_d2 reducesQ h_S_
      (ix3 b h t)).trans ?_
    show (Finset.univ : Finset (Fin 2048)).fold max (Ideal.ofBits .f32 0xFF800000#32)
        (fun s => y (reducesQ.lift (ix3 b h t) s)) = _
    refine Finset.fold_congr fun s _ => ?_
    rw [← hy s]
    exact congrArg y (funext fun a => Fin.ext (by
      match a with | ⟨0, _⟩ => rfl | ⟨1, _⟩ => rfl | ⟨2, _⟩ => rfl | ⟨3, _⟩ => rfl))
  rw [val_main_v23_apply, Ideal.maximumf_def, val_main_v22_apply, val_main_cst_1_apply, Ideal.ofBits_def, hfold]
  unfold colMax
  exact max_eq_right ((Finset.le_fold_max _).2 (Or.inl le_rfl))

/-- The shifted exponential of query s's score against key t. -/
theorem expo_apply (x0 : TX) (x1 : TW) (x2 : TB) (x3 : TW) (x4 : TB) (b : Fin 4) (h : Fin 16) (s t : Fin 2048) :
    val_main_v27 (F := Ideal) x0 x1 x2 x3 x4 (ix4 b h s t) = expo (Qf x0 x1 x2 b h) (Kf x0 x3 x4 b h t) s := by
  rw [val_main_v27_apply, Ideal.hostUnary_exp_def, val_main_v26_apply, Ideal.subf_def, score_apply,
      val_main_v25_apply, val_main_v24_apply,
      show idx_main_v24 (idx_main_v25 (ix4 b h s t)) = ix3 b h t from
        funext fun a => Fin.ext (by match a with | ⟨0, _⟩ => rfl | ⟨1, _⟩ => rfl | ⟨2, _⟩ => rfl),
      colMax_apply]
  rfl

/-- Key t's normaliser: the sum over all queries of the shifted exponentials, from the pattern of zero. -/
theorem colSum_apply (x0 : TX) (x1 : TW) (x2 : TB) (x3 : TW) (x4 : TB) (b : Fin 4) (h : Fin 16) (t : Fin 2048) :
    val_main_v28 (F := Ideal) x0 x1 x2 x3 x4 (ix3 b h t) = colSum (Qf x0 x1 x2 b h) (Kf x0 x3 x4 b h t) := by
  rw [val_main_v28_apply, val_main_cst_2_apply, Ideal.ofBits_def, Ideal.ofBits_zero_f32, zero_add]
  unfold colSum
  refine Finset.sum_congr rfl fun s _ => ?_
  rw [show idx_main_v28 (ix3 b h t) s = ix4 b h s t from
        funext fun a => Fin.ext (by match a with | ⟨0, _⟩ => rfl | ⟨1, _⟩ => rfl | ⟨2, _⟩ => rfl | ⟨3, _⟩ => rfl),
      expo_apply]

/-- The attention weight of query s on key t. -/
theorem weight_apply (x0 : TX) (x1 : TW) (x2 : TB) (x3 : TW) (x4 : TB) (b : Fin 4) (h : Fin 16) (s t : Fin 2048) :
    val_main_v31 (F := Ideal) x0 x1 x2 x3 x4 (ix4 b h s t) = weight (Qf x0 x1 x2 b h) (Kf x0 x3 x4 b h t) s := by
  rw [val_main_v31_apply, Ideal.hostDivf_def, expo_apply, val_main_v30_apply, val_main_v29_apply,
      show idx_main_v29 (idx_main_v30 (ix4 b h s t)) = ix3 b h t from
        funext fun a => Fin.ext (by match a with | ⟨0, _⟩ => rfl | ⟨1, _⟩ => rfl | ⟨2, _⟩ => rfl),
      colSum_apply]
  rfl

/-! ## One head's output, and the result -/

/-- One head's output at query s, lane d: the weights against the values, summed over the 2048 keys. -/
theorem headOut_apply (x0 : TX) (x1 : TW) (x2 : TB) (x3 : TW) (x4 : TB) (x5 : TW) (x6 : TB)
    (b : Fin 4) (h : Fin 16) (s : Fin 2048) (d : Fin 64) :
    val_main_v32 (F := Ideal) x0 x1 x2 x3 x4 x5 x6 (ix4 b h s d)
      = headOut (n := 2048) (Qf x0 x1 x2 b h) (fun t => Kf x0 x3 x4 b h t)
          (fun t d' => proj x0 x5 x6 b t (feat h d')) s d := by
  rw [val_main_v32_apply]
  unfold headOut
  refine Finset.sum_congr rfl fun t _ => ?_
  rw [show lidx_main_v32 (ix4 b h s d) t = ix4 b h s t from
        funext fun a => Fin.ext (by match a with | ⟨0, _⟩ => rfl | ⟨1, _⟩ => rfl | ⟨2, _⟩ => rfl | ⟨3, _⟩ => rfl),
      show ridx_main_v32 (ix4 b h s d) t = ix4 b h t d from
        funext fun a => Fin.ext (by match a with | ⟨0, _⟩ => rfl | ⟨1, _⟩ => rfl | ⟨2, _⟩ => rfl | ⟨3, _⟩ => rfl),
      weight_apply, v_apply]

/-- Feature n of the result sits at head n / 64, lane n % 64 of [4, 2048, 16, 64]. -/
theorem merge_idx (b : Fin 4) (s : Fin 2048) (n : Fin 1024) :
    idx_main_v34 (ix3 b s n) = ix4 b s (headOf n) (laneOf n) := by
  funext a
  apply Fin.ext
  have hb := b.isLt; have hs := s.isLt; have hn := n.isLt
  match a with
  | ⟨0, _⟩ => show ((b.val * 2048 + s.val) * 1024 + n.val) / 2097152 = b.val; omega
  | ⟨1, _⟩ => show ((b.val * 2048 + s.val) * 1024 + n.val) / 1024 % 2048 = s.val; omega
  | ⟨2, _⟩ => show ((b.val * 2048 + s.val) * 1024 + n.val) / 64 % 16 = n.val / 64; omega
  | ⟨3, _⟩ => show ((b.val * 2048 + s.val) * 1024 + n.val) % 64 = n.val % 64; omega

/-- The result at batch entry b, position s, feature n. -/
theorem out_apply (x0 : TX) (x1 : TW) (x2 : TB) (x3 : TW) (x4 : TB) (x5 : TW) (x6 : TB)
    (b : Fin 4) (s : Fin 2048) (n : Fin 1024) :
    val_main_v34 (F := Ideal) x0 x1 x2 x3 x4 x5 x6 (ix3 b s n)
      = headOut (n := 2048) (fun s' d => proj x0 x1 x2 b s' (feat (headOf n) d))
          (fun t d => proj x0 x3 x4 b t (feat (headOf n) d))
          (fun t d => proj x0 x5 x6 b t (feat (headOf n) d)) s (laneOf n) := by
  rw [val_main_v34_apply, merge_idx, val_main_v33_apply,
      show idx_main_v33 (ix4 b s (headOf n) (laneOf n)) = ix4 b (headOf n) s (laneOf n) from
        funext fun a => Fin.ext (by match a with | ⟨0, _⟩ => rfl | ⟨1, _⟩ => rfl | ⟨2, _⟩ => rfl | ⟨3, _⟩ => rfl),
      headOut_apply]

/-- The reference program's result is the specification. -/
theorem ref_eq (x0 : (⟨Cert.ReferenceIdeal.S4x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal)) :
    Cert.ReferenceIdeal.Read.val_main_v34 (F := Ideal) x0 x1 x2 x3 x4 x5 x6 = Cert.Attn.G x0 x1 x2 x3 x4 x5 x6 := by
  funext i
  rw [eq_ix3 i]
  exact out_apply x0 x1 x2 x3 x4 x5 x6 (i 0) (i 1) (i 2)

end Cert.ReferenceIdeal.RefValue

end
-- ==== Proof.lean ====
/-
  Multi-head attention with the softmax taken over the QUERY axis, as two kernels — a fused linear projection
  x · [Wq; Wk; Wv]ᵀ + [bq; bk; bv] into one array [8192, 3072], and an attention kernel that reads two heads'
  queries, keys and values out of that one array per grid point and accumulates  Σ_k a_k · v_k  over the keys in four
  blocks of 512 — against the plain formulation: three projections, q · kᵀ / 10, a softmax over the queries,
  attn · v, per batch entry and head.

  At the extended reals both are ONE function of the arguments (Spec.lean): the kernel's product with the named
  constant 1/10 is the reference's quotient by 10; a column's maximum, shifted exponentials, their sum and the
  quotient depend on a key only through its vector, so the key axis may be cut in blocks; and a sum over the 2048 keys
  taken block by block from zero is the sum. No step uses that the inputs are finite.

  The frames: every weakly fair execution of either kernel program runs the host stretch, the projection region
  (16 points) and the attention region (32 points, its three input windows on ONE array, held in three shares) to the
  end, faults nowhere and leaves the arguments as launched (Run.lean; RunBits.lean for the word-level program); the
  reference's frame is its run with the result dropped.
-/
import proofs.«179196_j52527450030207_2_alg».proof.Defs
import proofs.«179196_j52527450030207_2_alg».proof.Proof.Gen.Kernel
import proofs.«179196_j52527450030207_2_alg».proof.Proof.Gen.KernelIdeal
import proofs.«179196_j52527450030207_2_alg».proof.Proof.Gen.ReferenceIdeal
import proofs.«179196_j52527450030207_2_alg».proof.Proof.Gen.Pre_finite_inputs
import proofs.«179196_j52527450030207_2_alg».proof.Proof.Gen.ReferenceIdeal.Read
import proofs.«179196_j52527450030207_2_alg».proof.Proof.Run
import proofs.«179196_j52527450030207_2_alg».proof.Proof.RunBits
import proofs.«179196_j52527450030207_2_alg».proof.Proof.Value0
import proofs.«179196_j52527450030207_2_alg».proof.Proof.Value2
import proofs.«179196_j52527450030207_2_alg».proof.Proof.RefValue
import Idealize.ShloMosaic.Adequacy
import Idealize.ShloMosaic.Init

noncomputable section

namespace Cert.Proof

open Idealize.ShloMosaic Idealize.ShloMosaic.TcCoe Idealize.SL.Sem

/-! ## The frames and the named constant -/

theorem frame_k : Cert.frame_Kernel (hKernel := Cert.Kernel.Gen.facts) (hPre_finite_inputs := Cert.Pre_finite_inputs.Gen.facts) :=
  fun m ρ _ => Cert.Kernel.Run.frame m ρ
theorem frame_ki : Cert.frame_KernelIdeal (hKernelIdeal := Cert.KernelIdeal.Gen.facts) (hPre_finite_inputs := Cert.Pre_finite_inputs.Gen.facts) :=
  fun m ρ _ => Cert.KernelIdeal.Run.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The table gives the name "inv_10" the value 1/10, and the printed constant is that value at the extended reals,
    at both of its sites (one per head of a grid point). -/
theorem preserves : Cert.preserves_Kernel_KernelIdeal :=
  ⟨IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩

/-! ## The two results are one function of the arguments -/

section
variable [hKI : Cert.KernelIdeal.Facts]

/-- What the attention region's write-backs leave in the result array is the specification of the launch arguments:
    the projection region leaves the fused projections in the array the attention region reads (Value0), and over
    that array the attention region's blocks are the specification's (Value2). -/
theorem kernel_result (m : (ℓ : Loc Cert.KernelIdeal.nD Cert.KernelIdeal.τ Cert.KernelIdeal.sig) → Buf (Elt Ideal) ℓ) (c : Dev Cert.KernelIdeal.nD) :
    (Cert.KernelIdeal.R1.dat1 (F := Ideal) (Cert.KernelIdeal.Run.V2 m) c).arrAt 3 Cert.KernelIdeal.cfg1.N
      = Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  Cert.KernelIdeal.Value2.attn_final (Cert.KernelIdeal.Run.V2 m) c _ _ _ _ _ _ _
    ((Cert.KernelIdeal.Run.W2_arr m c 3).trans (Cert.KernelIdeal.Value0.qkv_final m c))
end

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (kernel_result (hKI := Cert.KernelIdeal.Gen.facts) m c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, Cert.ReferenceIdeal.RefValue.ref_eq,
      (hagree c).1, (hagree c).2.1, (hagree c).2.2.1, (hagree c).2.2.2.1, (hagree c).2.2.2.2.1, (hagree c).2.2.2.2.2.1, (hagree c).2.2.2.2.2.2]

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
